-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x64 : Shape := ⟨3, ![512, 16, 64]⟩
abbrev S16x512x64 : Shape := ⟨3, ![16, 512, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024x1 : Shape := ⟨2, ![1024, 1]⟩
abbrev S1x1024 : Shape := ⟨2, ![1, 1024]⟩

abbrev nBuf : Space → Nat
  | .hbm => 28
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S1x3072, .f32⟩
  | .hbm, ⟨16, _⟩ => ⟨S2x16x2048x64, .bf16⟩
  | .hbm, ⟨17, _⟩ => ⟨S2x16x2048x64, .bf16⟩
  | .hbm, ⟨18, _⟩ => ⟨S2x16x2048x64, .bf16⟩
  | .hbm, ⟨19, _⟩ => ⟨S32x2048x64, .bf16⟩
  | .hbm, ⟨20, _⟩ => ⟨S32x2048x64, .bf16⟩
  | .hbm, ⟨21, _⟩ => ⟨S32x2048x64, .bf16⟩
  | .hbm, ⟨22, _⟩ => ⟨S32x2048x64, .bf16⟩
  | .hbm, ⟨23, _⟩ => ⟨S2x16x2048x64, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x16x512x64, .bf16⟩
  | .local _ .vmem, ⟨19, _⟩ => ⟨S1x16x512x64, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  shapeCasts_S1024_S1x1024 : S1024.ShapeCasts S1x1024
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .bf16 = 32 ∨ (Rect.block (s := S2x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .bf16 = 32 ∨ (Rect.block (s := S2x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S2x2048x1024, .f32⟩
  | .hbm, ⟨11, _⟩ => ⟨S1x1x1024, .f32⟩
  | .hbm, ⟨12, _⟩ => ⟨S2x2048x1024, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S1024x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S1024x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x16x64, .f32⟩
  | .hbm, ⟨29, _⟩ => ⟨S2x16x2048x64, .f32⟩
  | .hbm, ⟨30, _⟩ => ⟨S2x16x2048x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x2048x16x64, .f32⟩
  | .hbm, ⟨52, _⟩ => ⟨S2x2048x1024, .f32⟩
  | .hbm, ⟨53, _⟩ => ⟨S1024x1024, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KBody0.lean ====
/- Region 0 of the word-level kernel, body half: what one call of the region's kernel body does to the
   staging buffers of its windows, for any float instance and for any contents `V` of the TensorCore's
   buffers when the region is entered.

   A window's BLOCK at a grid point is the rectangle of the window's array that the window's index map
   selects at that point, read out of the array as the region found it. The body reads the whole staging
   buffer of every input window, and overwrites the whole staging buffer of every output window exactly
   once. So after the body an input window's buffer still holds that window's block, and an output
   window's buffer holds one fixed function of the three input blocks: the payload of its single store. -/
import proofs.«181749_j403726926150_2_alg».proof.Proof.Gen.Kernel.Launch
import proofs.«181749_j403726926150_2_alg».proof.Proof.Gen.Kernel.Skeleton
import proofs.«181749_j403726926150_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle its index map selects there, read off the window's array
    as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether or not the
    pipeline fetched it there (a point without a fetch is one where the block index did not move, so the
    buffer still holds the previous point's block, which is this point's). For any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the
    pipeline fetched it there (a point without a fetch is one where the block index did not move, so the
    buffer still holds the previous point's block, which is this point's). For any proof data whose array
    is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the
    pipeline fetched it there (a point without a fetch is one where the block index did not move, so the
    buffer still holds the previous point's block, which is this point's). For any proof data whose array
    is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1x16x512x64 := Rect.unit (s := S1x16x512x64) ![0, 0, 0, 0] S1x16x512x64.size inb_S1x16x512x64_S1x16x512x64_0_0_0_0
abbrev r0_4 : Rect S1x16x512x64 := Rect.unit (s := S1x16x512x64) ![0, 0, 0, 0] S1x16x512x64.size inb_S1x16x512x64_S1x16x512x64_0_0_0_0
abbrev r0_5 : Rect S1x16x512x64 := Rect.unit (s := S1x16x512x64) ![0, 0, 0, 0] S1x16x512x64.size inb_S1x16x512x64_S1x16x512x64_0_0_0_0

/-! ## What the body leaves in each output window's buffer -/

/-- Output window 3's staging buffer after the body, as a function of the three input blocks: the body's
    one store into it covers the whole buffer, so the buffer holds that store's payload. -/
def out0_3 (x0 : Vec F S1x512x1024 .f32) (x1 : Vec F S1024x3072 .bf16) (x2 : Vec F S1x3072 .f32) : Vec F S1x16x512x64 .bf16 :=
  View.canon [⟨r0_3, k0_pay2 (View.ld x0 r0_0) (View.ld x1 r0_1) (View.ld x2 r0_2)⟩]

/-- The one store covers the buffer. -/
theorem cover0_3 (p0 : Vec F S1x16x512x64 .bf16) (y : S1x16x512x64.Idx) :
    ∃ pc ∈ ([⟨r0_3, p0⟩] : List (View.Piece (Elt F) S1x16x512x64 .bf16)), y ∈ pc.1.set :=
  View.cover_of_tiled [⟨r0_3, p0⟩] S1x16x512x64.size (by rfl) y

/-- Output window 4's staging buffer after the body, as a function of the three input blocks: the body's
    one store into it covers the whole buffer, so the buffer holds that store's payload. -/
def out0_4 (x0 : Vec F S1x512x1024 .f32) (x1 : Vec F S1024x3072 .bf16) (x2 : Vec F S1x3072 .f32) : Vec F S1x16x512x64 .bf16 :=
  View.canon [⟨r0_4, k0_pay3 (View.ld x0 r0_0) (View.ld x1 r0_1) (View.ld x2 r0_2)⟩]

/-- The one store covers the buffer. -/
theorem cover0_4 (p0 : Vec F S1x16x512x64 .bf16) (y : S1x16x512x64.Idx) :
    ∃ pc ∈ ([⟨r0_4, p0⟩] : List (View.Piece (Elt F) S1x16x512x64 .bf16)), y ∈ pc.1.set :=
  View.cover_of_tiled [⟨r0_4, p0⟩] S1x16x512x64.size (by rfl) y

/-- Output window 5's staging buffer after the body, as a function of the three input blocks: the body's
    one store into it covers the whole buffer, so the buffer holds that store's payload. -/
def out0_5 (x0 : Vec F S1x512x1024 .f32) (x1 : Vec F S1024x3072 .bf16) (x2 : Vec F S1x3072 .f32) : Vec F S1x16x512x64 .bf16 :=
  View.canon [⟨r0_5, k0_pay4 (View.ld x0 r0_0) (View.ld x1 r0_1) (View.ld x2 r0_2)⟩]

/-- The one store covers the buffer. -/
theorem cover0_5 (p0 : Vec F S1x16x512x64 .bf16) (y : S1x16x512x64.Idx) :
    ∃ pc ∈ ([⟨r0_5, p0⟩] : List (View.Piece (Elt F) S1x16x512x64 .bf16)), y ∈ pc.1.set :=
  View.cover_of_tiled [⟨r0_5, p0⟩] S1x16x512x64.size (by rfl) y

/-! ## The body's triple -/

set_option maxHeartbeats 1000000 in
/-- The kernel body on whole staging memrefs, the inputs' reading `x0`, `x1`, `x2` and the outputs' holding
    anything, runs to a state where the inputs' read as before and each output's reads `out0_w` of the
    inputs. The body also loads each output buffer before storing into it; the value loaded is not used. -/
theorem sound_kernel0 (c : Dev nD) (E : Set ℕ) (i : grid0.Coords) (arg2 : Memref sig .tc .vmem S1x512x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x16x512x64 .bf16) (harg5 : arg5.IsWhole) (arg6 : Memref sig .tc .vmem S1x16x512x64 .bf16) (harg6 : arg6.IsWhole) (arg7 : Memref sig .tc .vmem S1x16x512x64 .bf16) (harg7 : arg7.IsWhole)
    (x0 : Vec F S1x512x1024 .f32) (x1 : Vec F S1024x3072 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input window's buffer holds its block and each output window's buffer holds `out0_w` of
    the three input blocks; the invariant is the scoped rest and the generator register, untouched; nothing
    is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_w`), so `sound_kernel0` applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/- Region 1 of the word-level kernel, body half: what one call of the region's kernel body does to the
   staging buffers of its windows, for any float instance and for any contents `V` of the TensorCore's
   buffers when the region is entered.

   A window's BLOCK at a grid point is the rectangle of the window's array that the window's index map
   selects at that point, read out of the array as the region found it. The body reads the whole staging
   buffer of every input window, and overwrites the whole staging buffer of every output window exactly
   once. So after the body an input window's buffer still holds that window's block, and an output
   window's buffer holds one fixed function of the three input blocks: the payload of its single store. -/
import proofs.«181749_j403726926150_2_alg».proof.Proof.Gen.Kernel.Launch
import proofs.«181749_j403726926150_2_alg».proof.Proof.Gen.Kernel.Skeleton
import proofs.«181749_j403726926150_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle its index map selects there, read off the window's array
    as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether or not the
    pipeline fetched it there (a point without a fetch is one where the block index did not move, so the
    buffer still holds the previous point's block, which is this point's). For any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether or not the
    pipeline fetched it there (a point without a fetch is one where the block index did not move, so the
    buffer still holds the previous point's block, which is this point's). For any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether or not the
    pipeline fetched it there (a point without a fetch is one where the block index did not move, so the
    buffer still holds the previous point's block, which is this point's). For any proof data whose array
    is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole staging buffer -/

abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0
abbrev r1_2 : Rect S1x2048x64 := Rect.unit (s := S1x2048x64) ![0, 0, 0] S1x2048x64.size inb_S1x2048x64_S1x2048x64_0_0_0
abbrev r1_3 : Rect S1x1024x64 := Rect.unit (s := S1x1024x64) ![0, 0, 0] S1x1024x64.size inb_S1x1024x64_S1x1024x64_0_0_0

/-! ## What the body leaves in each output window's buffer -/

/-- Output window 3's staging buffer after the body, as a function of the three input blocks: the body's
    one store into it covers the whole buffer, so the buffer holds that store's payload. -/
def out1_3 (x0 : Vec F S1x1024x64 .bf16) (x1 : Vec F S1x2048x64 .bf16) (x2 : Vec F S1x2048x64 .bf16) : Vec F S1x1024x64 .bf16 :=
  View.canon [⟨r1_3, k1_pay1 (View.ld x0 r1_0) (View.ld x1 r1_1) (View.ld x2 r1_2)⟩]

/-- The one store covers the buffer. -/
theorem cover1_3 (p0 : Vec F S1x1024x64 .bf16) (y : S1x1024x64.Idx) :
    ∃ pc ∈ ([⟨r1_3, p0⟩] : List (View.Piece (Elt F) S1x1024x64 .bf16)), y ∈ pc.1.set :=
  View.cover_of_tiled [⟨r1_3, p0⟩] S1x1024x64.size (by rfl) y

/-! ## The body's triple -/

set_option maxHeartbeats 1000000 in
/-- The kernel body on whole staging memrefs, the inputs' reading `x0`, `x1`, `x2` and the outputs' holding
    anything, runs to a state where the inputs' read as before and each output's reads `out1_w` of the
    inputs. The body also loads each output buffer before storing into it; the value loaded is not used. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input window's buffer holds its block and each output window's buffer holds `out1_w` of
    the three input blocks; the invariant is the scoped rest and the generator register, untouched; nothing
    is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks (`before1_w`), so `sound_kernel1` applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/- Region 2 of the word-level kernel, body half: what one call of the region's kernel body does to the
   staging buffers of its windows, for any float instance and for any contents `V` of the TensorCore's
   buffers when the region is entered.

   A window's BLOCK at a grid point is the rectangle of the window's array that the window's index map
   selects at that point, read out of the array as the region found it. The body reads the whole staging
   buffer of every input window, and overwrites the whole staging buffer of every output window exactly
   once. So after the body an input window's buffer still holds that window's block, and an output
   window's buffer holds one fixed function of the three input blocks: the payload of its single store. -/
import proofs.«181749_j403726926150_2_alg».proof.Proof.Gen.Kernel.Launch
import proofs.«181749_j403726926150_2_alg».proof.Proof.Gen.Kernel.Skeleton
import proofs.«181749_j403726926150_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle its index map selects there, read off the window's array
    as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether or not the
    pipeline fetched it there (a point without a fetch is one where the block index did not move, so the
    buffer still holds the previous point's block, which is this point's). For any proof data whose array
    is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether or not the
    pipeline fetched it there (a point without a fetch is one where the block index did not move, so the
    buffer still holds the previous point's block, which is this point's). For any proof data whose array
    is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether or not the
    pipeline fetched it there (a point without a fetch is one where the block index did not move, so the
    buffer still holds the previous point's block, which is this point's). For any proof data whose array
    is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and every store is of a whole staging buffer -/

abbrev r2_0 : Rect S1x16x512x64 := Rect.unit (s := S1x16x512x64) ![0, 0, 0, 0] S1x16x512x64.size inb_S1x16x512x64_S1x16x512x64_0_0_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1x512x1024 := Rect.unit (s := S1x512x1024) ![0, 0, 0] S1x512x1024.size inb_S1x512x1024_S1x512x1024_0_0_0

/-! ## What the body leaves in each output window's buffer -/

/-- Output window 3's staging buffer after the body, as a function of the three input blocks: the body's
    one store into it covers the whole buffer, so the buffer holds that store's payload. -/
def out2_3 (x0 : Vec F S1x16x512x64 .bf16) (x1 : Vec F S1024x1024 .bf16) (x2 : Vec F S1x1024 .f32) : Vec F S1x512x1024 .f32 :=
  View.canon [⟨r2_3, k2_pay1 (View.ld x0 r2_0) (View.ld x1 r2_1) (View.ld x2 r2_2)⟩]

/-- The one store covers the buffer. -/
theorem cover2_3 (p0 : Vec F S1x512x1024 .f32) (y : S1x512x1024.Idx) :
    ∃ pc ∈ ([⟨r2_3, p0⟩] : List (View.Piece (Elt F) S1x512x1024 .f32)), y ∈ pc.1.set :=
  View.cover_of_tiled [⟨r2_3, p0⟩] S1x512x1024.size (by rfl) y

/-! ## The body's triple -/

set_option maxHeartbeats 1000000 in
/-- The kernel body on whole staging memrefs, the inputs' reading `x0`, `x1`, `x2` and the outputs' holding
    anything, runs to a state where the inputs' read as before and each output's reads `out2_w` of the
    inputs. The body also loads each output buffer before storing into it; the value loaded is not used. -/
theorem sound_kernel2 (c : Dev nD) (E : Set ℕ) (i : grid2.Coords) (arg2 : Memref sig .tc .vmem S1x16x512x64 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x512x1024 .f32) (harg5 : arg5.IsWhole)
    (x0 : Vec F S1x16x512x64 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__o_kernel i arg2 harg2 arg3 harg3 arg4 harg4 arg5 harg5) K := by
  simp only [cc2__o_kernel_eq_skeleton]; unfold cc2__o_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input window's buffer holds its block and each output window's buffer holds `out2_w` of
    the three input blocks; the invariant is the scoped rest and the generator register, untouched; nothing
    is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input window's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what the core owes, and each window's current
    staging buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks (`before2_w`), so `sound_kernel2` applies;
    the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole program: three kernel regions among three stretches of host operations.

  Between two items every unscoped buffer of a core holds known contents: the launch memory, then each host stretch
  applied to it, then, after a region, the region's arrays at what the pipeline's write-backs leave (each output
  array the fold of its blocks' write-backs, each input array as entered) and every other buffer unchanged. The
  nine argument arrays are written by no host operation and are output arrays of no region, so they read back to
  their launch contents; the result array is the third region's output array.
-/
import proofs.«181749_j403726926150_2_alg».proof.Proof.Gen.Kernel.Launch
import proofs.«181749_j403726926150_2_alg».proof.Proof.Gen.Kernel.Skeleton
import proofs.«181749_j403726926150_2_alg».proof.Proof.Gen.Kernel.Points
import proofs.«181749_j403726926150_2_alg».proof.Proof.Gen.Kernel.Regions
import proofs.«181749_j403726926150_2_alg».proof.Proof.KBody0
import proofs.«181749_j403726926150_2_alg».proof.Proof.KBody1
import proofs.«181749_j403726926150_2_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch: the transposed weights laid side by side, the biases end to end. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After region 0: its arrays at what the pipeline's write-backs leave, every other buffer as the region found it. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: the three projections with batch and head merged into one axis. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- After region 1: its arrays at what the pipeline's write-backs leave, every other buffer as the region found it. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the third host stretch: the attention output split back into batch and head, the output weight transposed. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- After region 2: its arrays at what the pipeline's write-backs leave, every other buffer as the region found it. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-! ## The arguments end as launched -/

/-- A buffer that no host operation writes and that is no region's array holds its launch contents at the end. -/
theorem W6_keep (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  (W6_of_ne m ρ c b a2).trans <| (StableHlo.after_of_writes_sub hostOps2 _ hostOps2_writes h2).trans <|
    (W4_of_ne m ρ c b a1).trans <| (StableHlo.after_of_writes_sub hostOps1 _ hostOps1_writes h1).trans <|
    (W2_of_ne m ρ c b a0).trans <| (StableHlo.after_of_writes_sub hostOps0 _ hostOps0_writes h0).trans rfl

/-- The activation is the first region's first input array: an input array is left as entered. -/
theorem W6_main_arg0 (c : Dev nD) : W6 m ρ c (Proc.devRef .tc main_arg0) = m ((c : Thread nD τ).loc main_arg0) :=
  (W6_of_ne m ρ c main_arg0 (by decide)).trans <| (StableHlo.after_of_writes_sub hostOps2 _ hostOps2_writes (by decide)).trans <|
    (W4_of_ne m ρ c main_arg0 (by decide)).trans <| (StableHlo.after_of_writes_sub hostOps1 _ hostOps1_writes (by decide)).trans <|
    ((W2_arr m ρ c 0).trans (((dat0 (U1 m ρ) c).arrAt_in 0 rfl _).trans (A_eq0 (U1 m ρ) c 0))).trans <|
    (StableHlo.after_of_writes_sub hostOps0 _ hostOps0_writes (by decide)).trans rfl
theorem W6_main_arg1 (c : Dev nD) : W6 m ρ c (Proc.devRef .tc main_arg1) = m ((c : Thread nD τ).loc main_arg1) :=
  W6_keep m ρ c main_arg1 (by decide) (by decide) (by decide) (by decide) (by decide) (by decide)
theorem W6_main_arg2 (c : Dev nD) : W6 m ρ c (Proc.devRef .tc main_arg2) = m ((c : Thread nD τ).loc main_arg2) :=
  W6_keep m ρ c main_arg2 (by decide) (by decide) (by decide) (by decide) (by decide) (by decide)
theorem W6_main_arg3 (c : Dev nD) : W6 m ρ c (Proc.devRef .tc main_arg3) = m ((c : Thread nD τ).loc main_arg3) :=
  W6_keep m ρ c main_arg3 (by decide) (by decide) (by decide) (by decide) (by decide) (by decide)
theorem W6_main_arg4 (c : Dev nD) : W6 m ρ c (Proc.devRef .tc main_arg4) = m ((c : Thread nD τ).loc main_arg4) :=
  W6_keep m ρ c main_arg4 (by decide) (by decide) (by decide) (by decide) (by decide) (by decide)
theorem W6_main_arg5 (c : Dev nD) : W6 m ρ c (Proc.devRef .tc main_arg5) = m ((c : Thread nD τ).loc main_arg5) :=
  W6_keep m ρ c main_arg5 (by decide) (by decide) (by decide) (by decide) (by decide) (by decide)
theorem W6_main_arg6 (c : Dev nD) : W6 m ρ c (Proc.devRef .tc main_arg6) = m ((c : Thread nD τ).loc main_arg6) :=
  W6_keep m ρ c main_arg6 (by decide) (by decide) (by decide) (by decide) (by decide) (by decide)
theorem W6_main_arg7 (c : Dev nD) : W6 m ρ c (Proc.devRef .tc main_arg7) = m ((c : Thread nD τ).loc main_arg7) :=
  W6_keep m ρ c main_arg7 (by decide) (by decide) (by decide) (by decide) (by decide) (by decide)
theorem W6_main_arg8 (c : Dev nD) : W6 m ρ c (Proc.devRef .tc main_arg8) = m ((c : Thread nD τ).loc main_arg8) :=
  W6_keep m ρ c main_arg8 (by decide) (by decide) (by decide) (by decide) (by decide) (by decide)

/-- The result array is the third region's output array. -/
theorem W6_result (c : Dev nD) : W6 m ρ c (Proc.devRef .tc main_v16) = (dat2 (U5 m ρ) c).arrAt 3 cfg2.N :=
  W6_arr m ρ c 3

/-! ## The proof data family and the thread state -/

/-- No pipeline has a prefetched table. -/
abbrev adm3 : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm3 p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at its contents before the region, left with
    the region's arrays at what its write-backs leave and every other buffer as entered; the generator register passes
    through; nothing is owed. -/
def reg0 : Pipeline.RegionSeg (pcfgs (F := F)) adm3 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm3 (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its contents before the region, left with
    the region's arrays at what its write-backs leave and every other buffer as entered; the generator register passes
    through; nothing is owed. -/
def reg1 : Pipeline.RegionSeg (pcfgs (F := F)) adm3 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm3 (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its contents before the region, left with
    the region's arrays at what its write-backs leave and every other buffer as entered; the generator register passes
    through; nothing is owed. -/
def reg2 : Pipeline.RegionSeg (pcfgs (F := F)) adm3 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm3 (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six items in order. -/
abbrev segsAll : List (Pipeline.Seg (pcfgs (F := F)) adm3 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segsAll m ρ) := (main_chain c).trans (by chain_rfl)

set_option backward.isDefEq.respectTransparency.types false in
/-- From any memory with zero counters every weakly fair execution terminates, nothing faults, and at the end the result
    array holds the third region's output array while each argument array holds its launch contents. -/
theorem run_all : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm3 (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_all m ρ)

end Cert.Kernel.Hand

end
-- ==== Proof.Body0.lean ====
/- Region 0 of the idealized kernel, body half: what one call of the region's kernel body does to the
   staging buffers of its windows, for any float instance and for any contents `V` of the TensorCore's
   buffers when the region is entered.

   A window's BLOCK at a grid point is the rectangle of the window's array that the window's index map
   selects at that point, read out of the array as the region found it. The body reads the whole staging
   buffer of every input window, and overwrites the whole staging buffer of every output window exactly
   once. So after the body an input window's buffer still holds that window's block, and an output
   window's buffer holds one fixed function of the three input blocks: the payload of its single store. -/
import proofs.«181749_j403726926150_2_alg».proof.Proof.Gen.KernelIdeal.Launch
import proofs.«181749_j403726926150_2_alg».proof.Proof.Gen.KernelIdeal.Skeleton
import proofs.«181749_j403726926150_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle its index map selects there, read off the window's array
    as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether or not the
    pipeline fetched it there (a point without a fetch is one where the block index did not move, so the
    buffer still holds the previous point's block, which is this point's). For any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the
    pipeline fetched it there (a point without a fetch is one where the block index did not move, so the
    buffer still holds the previous point's block, which is this point's). For any proof data whose array
    is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the
    pipeline fetched it there (a point without a fetch is one where the block index did not move, so the
    buffer still holds the previous point's block, which is this point's). For any proof data whose array
    is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1x16x512x64 := Rect.unit (s := S1x16x512x64) ![0, 0, 0, 0] S1x16x512x64.size inb_S1x16x512x64_S1x16x512x64_0_0_0_0
abbrev r0_4 : Rect S1x16x512x64 := Rect.unit (s := S1x16x512x64) ![0, 0, 0, 0] S1x16x512x64.size inb_S1x16x512x64_S1x16x512x64_0_0_0_0
abbrev r0_5 : Rect S1x16x512x64 := Rect.unit (s := S1x16x512x64) ![0, 0, 0, 0] S1x16x512x64.size inb_S1x16x512x64_S1x16x512x64_0_0_0_0

/-! ## What the body leaves in each output window's buffer -/

/-- Output window 3's staging buffer after the body, as a function of the three input blocks: the body's
    one store into it covers the whole buffer, so the buffer holds that store's payload. -/
def out0_3 (x0 : Vec F S1x512x1024 .f32) (x1 : Vec F S1024x3072 .bf16) (x2 : Vec F S1x3072 .f32) : Vec F S1x16x512x64 .bf16 :=
  View.canon [⟨r0_3, k0_pay2 (View.ld x0 r0_0) (View.ld x1 r0_1) (View.ld x2 r0_2)⟩]

/-- The one store covers the buffer. -/
theorem cover0_3 (p0 : Vec F S1x16x512x64 .bf16) (y : S1x16x512x64.Idx) :
    ∃ pc ∈ ([⟨r0_3, p0⟩] : List (View.Piece (Elt F) S1x16x512x64 .bf16)), y ∈ pc.1.set :=
  View.cover_of_tiled [⟨r0_3, p0⟩] S1x16x512x64.size (by rfl) y

/-- Output window 4's staging buffer after the body, as a function of the three input blocks: the body's
    one store into it covers the whole buffer, so the buffer holds that store's payload. -/
def out0_4 (x0 : Vec F S1x512x1024 .f32) (x1 : Vec F S1024x3072 .bf16) (x2 : Vec F S1x3072 .f32) : Vec F S1x16x512x64 .bf16 :=
  View.canon [⟨r0_4, k0_pay3 (View.ld x0 r0_0) (View.ld x1 r0_1) (View.ld x2 r0_2)⟩]

/-- The one store covers the buffer. -/
theorem cover0_4 (p0 : Vec F S1x16x512x64 .bf16) (y : S1x16x512x64.Idx) :
    ∃ pc ∈ ([⟨r0_4, p0⟩] : List (View.Piece (Elt F) S1x16x512x64 .bf16)), y ∈ pc.1.set :=
  View.cover_of_tiled [⟨r0_4, p0⟩] S1x16x512x64.size (by rfl) y

/-- Output window 5's staging buffer after the body, as a function of the three input blocks: the body's
    one store into it covers the whole buffer, so the buffer holds that store's payload. -/
def out0_5 (x0 : Vec F S1x512x1024 .f32) (x1 : Vec F S1024x3072 .bf16) (x2 : Vec F S1x3072 .f32) : Vec F S1x16x512x64 .bf16 :=
  View.canon [⟨r0_5, k0_pay4 (View.ld x0 r0_0) (View.ld x1 r0_1) (View.ld x2 r0_2)⟩]

/-- The one store covers the buffer. -/
theorem cover0_5 (p0 : Vec F S1x16x512x64 .bf16) (y : S1x16x512x64.Idx) :
    ∃ pc ∈ ([⟨r0_5, p0⟩] : List (View.Piece (Elt F) S1x16x512x64 .bf16)), y ∈ pc.1.set :=
  View.cover_of_tiled [⟨r0_5, p0⟩] S1x16x512x64.size (by rfl) y

/-! ## The body's triple -/

set_option maxHeartbeats 1000000 in
/-- The kernel body on whole staging memrefs, the inputs' reading `x0`, `x1`, `x2` and the outputs' holding
    anything, runs to a state where the inputs' read as before and each output's reads `out0_w` of the
    inputs. The body also loads each output buffer before storing into it; the value loaded is not used. -/
theorem sound_kernel0 (c : Dev nD) (E : Set ℕ) (i : grid0.Coords) (arg2 : Memref sig .tc .vmem S1x512x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x16x512x64 .bf16) (harg5 : arg5.IsWhole) (arg6 : Memref sig .tc .vmem S1x16x512x64 .bf16) (harg6 : arg6.IsWhole) (arg7 : Memref sig .tc .vmem S1x16x512x64 .bf16) (harg7 : arg7.IsWhole)
    (x0 : Vec F S1x512x1024 .f32) (x1 : Vec F S1024x3072 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input window's buffer holds its block and each output window's buffer holds `out0_w` of
    the three input blocks; the invariant is the scoped rest and the generator register, untouched; nothing
    is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_w`), so `sound_kernel0` applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/- Region 1 of the idealized kernel, body half: what one call of the region's kernel body does to the
   staging buffers of its windows, for any float instance and for any contents `V` of the TensorCore's
   buffers when the region is entered.

   A window's BLOCK at a grid point is the rectangle of the window's array that the window's index map
   selects at that point, read out of the array as the region found it. The body reads the whole staging
   buffer of every input window, and overwrites the whole staging buffer of every output window exactly
   once. So after the body an input window's buffer still holds that window's block, and an output
   window's buffer holds one fixed function of the three input blocks: the payload of its single store. -/
import proofs.«181749_j403726926150_2_alg».proof.Proof.Gen.KernelIdeal.Launch
import proofs.«181749_j403726926150_2_alg».proof.Proof.Gen.KernelIdeal.Skeleton
import proofs.«181749_j403726926150_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle its index map selects there, read off the window's array
    as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether or not the
    pipeline fetched it there (a point without a fetch is one where the block index did not move, so the
    buffer still holds the previous point's block, which is this point's). For any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether or not the
    pipeline fetched it there (a point without a fetch is one where the block index did not move, so the
    buffer still holds the previous point's block, which is this point's). For any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether or not the
    pipeline fetched it there (a point without a fetch is one where the block index did not move, so the
    buffer still holds the previous point's block, which is this point's). For any proof data whose array
    is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole staging buffer -/

abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0
abbrev r1_2 : Rect S1x2048x64 := Rect.unit (s := S1x2048x64) ![0, 0, 0] S1x2048x64.size inb_S1x2048x64_S1x2048x64_0_0_0
abbrev r1_3 : Rect S1x1024x64 := Rect.unit (s := S1x1024x64) ![0, 0, 0] S1x1024x64.size inb_S1x1024x64_S1x1024x64_0_0_0

/-! ## What the body leaves in each output window's buffer -/

/-- Output window 3's staging buffer after the body, as a function of the three input blocks: the body's
    one store into it covers the whole buffer, so the buffer holds that store's payload. -/
def out1_3 (x0 : Vec F S1x1024x64 .bf16) (x1 : Vec F S1x2048x64 .bf16) (x2 : Vec F S1x2048x64 .bf16) : Vec F S1x1024x64 .bf16 :=
  View.canon [⟨r1_3, k1_pay1 (View.ld x0 r1_0) (View.ld x1 r1_1) (View.ld x2 r1_2)⟩]

/-- The one store covers the buffer. -/
theorem cover1_3 (p0 : Vec F S1x1024x64 .bf16) (y : S1x1024x64.Idx) :
    ∃ pc ∈ ([⟨r1_3, p0⟩] : List (View.Piece (Elt F) S1x1024x64 .bf16)), y ∈ pc.1.set :=
  View.cover_of_tiled [⟨r1_3, p0⟩] S1x1024x64.size (by rfl) y

/-! ## The body's triple -/

set_option maxHeartbeats 1000000 in
/-- The kernel body on whole staging memrefs, the inputs' reading `x0`, `x1`, `x2` and the outputs' holding
    anything, runs to a state where the inputs' read as before and each output's reads `out1_w` of the
    inputs. The body also loads each output buffer before storing into it; the value loaded is not used. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input window's buffer holds its block and each output window's buffer holds `out1_w` of
    the three input blocks; the invariant is the scoped rest and the generator register, untouched; nothing
    is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks (`before1_w`), so `sound_kernel1` applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/- Region 2 of the idealized kernel, body half: what one call of the region's kernel body does to the
   staging buffers of its windows, for any float instance and for any contents `V` of the TensorCore's
   buffers when the region is entered.

   A window's BLOCK at a grid point is the rectangle of the window's array that the window's index map
   selects at that point, read out of the array as the region found it. The body reads the whole staging
   buffer of every input window, and overwrites the whole staging buffer of every output window exactly
   once. So after the body an input window's buffer still holds that window's block, and an output
   window's buffer holds one fixed function of the three input blocks: the payload of its single store. -/
import proofs.«181749_j403726926150_2_alg».proof.Proof.Gen.KernelIdeal.Launch
import proofs.«181749_j403726926150_2_alg».proof.Proof.Gen.KernelIdeal.Skeleton
import proofs.«181749_j403726926150_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle its index map selects there, read off the window's array
    as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether or not the
    pipeline fetched it there (a point without a fetch is one where the block index did not move, so the
    buffer still holds the previous point's block, which is this point's). For any proof data whose array
    is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether or not the
    pipeline fetched it there (a point without a fetch is one where the block index did not move, so the
    buffer still holds the previous point's block, which is this point's). For any proof data whose array
    is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether or not the
    pipeline fetched it there (a point without a fetch is one where the block index did not move, so the
    buffer still holds the previous point's block, which is this point's). For any proof data whose array
    is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and every store is of a whole staging buffer -/

abbrev r2_0 : Rect S1x16x512x64 := Rect.unit (s := S1x16x512x64) ![0, 0, 0, 0] S1x16x512x64.size inb_S1x16x512x64_S1x16x512x64_0_0_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1x512x1024 := Rect.unit (s := S1x512x1024) ![0, 0, 0] S1x512x1024.size inb_S1x512x1024_S1x512x1024_0_0_0

/-! ## What the body leaves in each output window's buffer -/

/-- Output window 3's staging buffer after the body, as a function of the three input blocks: the body's
    one store into it covers the whole buffer, so the buffer holds that store's payload. -/
def out2_3 (x0 : Vec F S1x16x512x64 .bf16) (x1 : Vec F S1024x1024 .bf16) (x2 : Vec F S1x1024 .f32) : Vec F S1x512x1024 .f32 :=
  View.canon [⟨r2_3, k2_pay1 (View.ld x0 r2_0) (View.ld x1 r2_1) (View.ld x2 r2_2)⟩]

/-- The one store covers the buffer. -/
theorem cover2_3 (p0 : Vec F S1x512x1024 .f32) (y : S1x512x1024.Idx) :
    ∃ pc ∈ ([⟨r2_3, p0⟩] : List (View.Piece (Elt F) S1x512x1024 .f32)), y ∈ pc.1.set :=
  View.cover_of_tiled [⟨r2_3, p0⟩] S1x512x1024.size (by rfl) y

/-! ## The body's triple -/

set_option maxHeartbeats 1000000 in
/-- The kernel body on whole staging memrefs, the inputs' reading `x0`, `x1`, `x2` and the outputs' holding
    anything, runs to a state where the inputs' read as before and each output's reads `out2_w` of the
    inputs. The body also loads each output buffer before storing into it; the value loaded is not used. -/
theorem sound_kernel2 (c : Dev nD) (E : Set ℕ) (i : grid2.Coords) (arg2 : Memref sig .tc .vmem S1x16x512x64 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x512x1024 .f32) (harg5 : arg5.IsWhole)
    (x0 : Vec F S1x16x512x64 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__o_kernel i arg2 harg2 arg3 harg3 arg4 harg4 arg5 harg5) K := by
  simp only [cc2__o_kernel_eq_skeleton]; unfold cc2__o_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input window's buffer holds its block and each output window's buffer holds `out2_w` of
    the three input blocks; the invariant is the scoped rest and the generator register, untouched; nothing
    is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input window's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what the core owes, and each window's current
    staging buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks (`before2_w`), so `sound_kernel2` applies;
    the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The run of the whole program: three kernel regions among three stretches of host operations.

  Between two items every unscoped buffer of a core holds known contents: the launch memory, then each host stretch
  applied to it, then, after a region, the region's arrays at what the pipeline's write-backs leave (each output
  array the fold of its blocks' write-backs, each input array as entered) and every other buffer unchanged. The
  nine argument arrays are written by no host operation and are output arrays of no region, so they read back to
  their launch contents; the result array is the third region's output array.
-/
import proofs.«181749_j403726926150_2_alg».proof.Proof.Gen.KernelIdeal.Launch
import proofs.«181749_j403726926150_2_alg».proof.Proof.Gen.KernelIdeal.Skeleton
import proofs.«181749_j403726926150_2_alg».proof.Proof.Gen.KernelIdeal.Points
import proofs.«181749_j403726926150_2_alg».proof.Proof.Gen.KernelIdeal.Regions
import proofs.«181749_j403726926150_2_alg».proof.Proof.Body0
import proofs.«181749_j403726926150_2_alg».proof.Proof.Body1
import proofs.«181749_j403726926150_2_alg».proof.Proof.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch: the transposed weights laid side by side, the biases end to end. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After region 0: its arrays at what the pipeline's write-backs leave, every other buffer as the region found it. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: the three projections with batch and head merged into one axis. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- After region 1: its arrays at what the pipeline's write-backs leave, every other buffer as the region found it. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the third host stretch: the attention output split back into batch and head, the output weight transposed. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- After region 2: its arrays at what the pipeline's write-backs leave, every other buffer as the region found it. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-! ## The arguments end as launched -/

/-- A buffer that no host operation writes and that is no region's array holds its launch contents at the end. -/
theorem W6_keep (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  (W6_of_ne m ρ c b a2).trans <| (StableHlo.after_of_writes_sub hostOps2 _ hostOps2_writes h2).trans <|
    (W4_of_ne m ρ c b a1).trans <| (StableHlo.after_of_writes_sub hostOps1 _ hostOps1_writes h1).trans <|
    (W2_of_ne m ρ c b a0).trans <| (StableHlo.after_of_writes_sub hostOps0 _ hostOps0_writes h0).trans rfl

/-- The activation is the first region's first input array: an input array is left as entered. -/
theorem W6_main_arg0 (c : Dev nD) : W6 m ρ c (Proc.devRef .tc main_arg0) = m ((c : Thread nD τ).loc main_arg0) :=
  (W6_of_ne m ρ c main_arg0 (by decide)).trans <| (StableHlo.after_of_writes_sub hostOps2 _ hostOps2_writes (by decide)).trans <|
    (W4_of_ne m ρ c main_arg0 (by decide)).trans <| (StableHlo.after_of_writes_sub hostOps1 _ hostOps1_writes (by decide)).trans <|
    ((W2_arr m ρ c 0).trans (((dat0 (U1 m ρ) c).arrAt_in 0 rfl _).trans (A_eq0 (U1 m ρ) c 0))).trans <|
    (StableHlo.after_of_writes_sub hostOps0 _ hostOps0_writes (by decide)).trans rfl
theorem W6_main_arg1 (c : Dev nD) : W6 m ρ c (Proc.devRef .tc main_arg1) = m ((c : Thread nD τ).loc main_arg1) :=
  W6_keep m ρ c main_arg1 (by decide) (by decide) (by decide) (by decide) (by decide) (by decide)
theorem W6_main_arg2 (c : Dev nD) : W6 m ρ c (Proc.devRef .tc main_arg2) = m ((c : Thread nD τ).loc main_arg2) :=
  W6_keep m ρ c main_arg2 (by decide) (by decide) (by decide) (by decide) (by decide) (by decide)
theorem W6_main_arg3 (c : Dev nD) : W6 m ρ c (Proc.devRef .tc main_arg3) = m ((c : Thread nD τ).loc main_arg3) :=
  W6_keep m ρ c main_arg3 (by decide) (by decide) (by decide) (by decide) (by decide) (by decide)
theorem W6_main_arg4 (c : Dev nD) : W6 m ρ c (Proc.devRef .tc main_arg4) = m ((c : Thread nD τ).loc main_arg4) :=
  W6_keep m ρ c main_arg4 (by decide) (by decide) (by decide) (by decide) (by decide) (by decide)
theorem W6_main_arg5 (c : Dev nD) : W6 m ρ c (Proc.devRef .tc main_arg5) = m ((c : Thread nD τ).loc main_arg5) :=
  W6_keep m ρ c main_arg5 (by decide) (by decide) (by decide) (by decide) (by decide) (by decide)
theorem W6_main_arg6 (c : Dev nD) : W6 m ρ c (Proc.devRef .tc main_arg6) = m ((c : Thread nD τ).loc main_arg6) :=
  W6_keep m ρ c main_arg6 (by decide) (by decide) (by decide) (by decide) (by decide) (by decide)
theorem W6_main_arg7 (c : Dev nD) : W6 m ρ c (Proc.devRef .tc main_arg7) = m ((c : Thread nD τ).loc main_arg7) :=
  W6_keep m ρ c main_arg7 (by decide) (by decide) (by decide) (by decide) (by decide) (by decide)
theorem W6_main_arg8 (c : Dev nD) : W6 m ρ c (Proc.devRef .tc main_arg8) = m ((c : Thread nD τ).loc main_arg8) :=
  W6_keep m ρ c main_arg8 (by decide) (by decide) (by decide) (by decide) (by decide) (by decide)

/-- The result array is the third region's output array. -/
theorem W6_result (c : Dev nD) : W6 m ρ c (Proc.devRef .tc main_v16) = (dat2 (U5 m ρ) c).arrAt 3 cfg2.N :=
  W6_arr m ρ c 3

/-! ## The proof data family and the thread state -/

/-- No pipeline has a prefetched table. -/
abbrev adm3 : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm3 p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at its contents before the region, left with
    the region's arrays at what its write-backs leave and every other buffer as entered; the generator register passes
    through; nothing is owed. -/
def reg0 : Pipeline.RegionSeg (pcfgs (F := F)) adm3 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm3 (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its contents before the region, left with
    the region's arrays at what its write-backs leave and every other buffer as entered; the generator register passes
    through; nothing is owed. -/
def reg1 : Pipeline.RegionSeg (pcfgs (F := F)) adm3 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm3 (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its contents before the region, left with
    the region's arrays at what its write-backs leave and every other buffer as entered; the generator register passes
    through; nothing is owed. -/
def reg2 : Pipeline.RegionSeg (pcfgs (F := F)) adm3 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm3 (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six items in order. -/
abbrev segsAll : List (Pipeline.Seg (pcfgs (F := F)) adm3 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segsAll m ρ) := (main_chain c).trans (by chain_rfl)

set_option backward.isDefEq.respectTransparency.types false in
/-- From any memory with zero counters every weakly fair execution terminates, nothing faults, and at the end the result
    array holds the third region's output array while each argument array holds its launch contents. -/
theorem run_all : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm3 (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_all m ρ)

end Cert.KernelIdeal.Hand

end
-- ==== Proof.Spec.lean ====
/-
  Multi-head self-attention over the extended reals, entry by entry.

  An activation x of shape [2, 2048, 1024] is projected three times by x · Wᵀ + β into queries, keys and values; feature
  f = 64 h + d of a projection is lane d of head h (16 heads of 64 lanes). For each batch b, head h and query row n the
  logits are the products of query row n with every key row, each scaled by 1/32; the row is normalised by the softmax
  (shifted by the row's maximum, which is the fold of `max` from the bottom element), the weights average the value rows,
  the heads are laid side by side again and projected by · Woᵀ + bo.
-/
import Idealize.ShloMosaic.PureOps.Ideal
import Idealize.ShloMosaic.Lib.ValueIdx

noncomputable section

namespace Cert.Mha

open Idealize.ShloMosaic Idealize.ShloMosaic.ValueIdx

/-- An activation array [2, 2048, 1024], a weight matrix [1024, 1024] and a bias vector [1024] over the extended reals. -/
abbrev Act := (⟨3, ![2, 2048, 1024]⟩ : Shape).Idx → EReal
abbrev Mat := (⟨2, ![1024, 1024]⟩ : Shape).Idx → EReal
abbrev Bias := (⟨1, ![1024]⟩ : Shape).Idx → EReal

/-- Lane d of head h is feature 64 h + d. -/
def feat (h : Fin 16) (d : Fin 64) : Fin 1024 := ⟨h.val * 64 + d.val, by have := h.isLt; have := d.isLt; omega⟩
/-- The head and the lane of a feature. -/
def headOf (e : Fin 1024) : Fin 16 := ⟨e.val / 64, by have := e.isLt; omega⟩
def laneOf (e : Fin 1024) : Fin 64 := ⟨e.val % 64, Nat.mod_lt _ (by norm_num)⟩

theorem feat_val (h : Fin 16) (d : Fin 64) : (feat h d).val = h.val * 64 + d.val := rfl
theorem headOf_val (e : Fin 1024) : (headOf e).val = e.val / 64 := rfl
theorem laneOf_val (e : Fin 1024) : (laneOf e).val = e.val % 64 := rfl
theorem feat_head_lane (e : Fin 1024) : feat (headOf e) (laneOf e) = e :=
  Fin.ext (by rw [feat_val, headOf_val, laneOf_val]; omega)

/-- A dense projection x · Wᵀ + β at batch b, row n, feature f. -/
def proj (x : Act) (W : Mat) (β : Bias) (b : Fin 2) (n : Fin 2048) (f : Fin 1024) : EReal :=
  (∑ e : Fin 1024, x (ix3 b n e) * W (ix2 f e)) + β (ix1 f)

/-- The scaled logit of query row n against key row j in head h of batch b. -/
def score (x : Act) (Wq : Mat) (bq : Bias) (Wk : Mat) (bk : Bias) (b : Fin 2) (h : Fin 16) (n j : Fin 2048) : EReal :=
  (∑ d : Fin 64, proj x Wq bq b n (feat h d) * proj x Wk bk b j (feat h d)) * ((1 / 32 : ℝ) : EReal)

/-- A row's maximum: the fold of `max` over its 2048 entries from the bottom element. -/
def rowMax (r : Fin 2048 → EReal) : EReal := (Finset.univ : Finset (Fin 2048)).fold max ⊥ r

/-- The softmax of a row at entry j, shifted by the row's maximum. -/
def softmaxRow (r : Fin 2048 → EReal) (j : Fin 2048) : EReal :=
  Ideal.div (Ideal.exp (r j - rowMax r)) (∑ k : Fin 2048, Ideal.exp (r k - rowMax r))

/-- Head h's attention output at batch b, row n, lane d: the softmax weights of row n applied to the value rows. -/
def attend (x : Act) (Wq : Mat) (bq : Bias) (Wk : Mat) (bk : Bias) (Wv : Mat) (bv : Bias)
    (b : Fin 2) (h : Fin 16) (n : Fin 2048) (d : Fin 64) : EReal :=
  ∑ j : Fin 2048, softmaxRow (score x Wq bq Wk bk b h n) j * proj x Wv bv b j (feat h d)

/-- The layer's output at batch b, row n, feature f. -/
def mhaAt (x : Act) (Wq : Mat) (bq : Bias) (Wk : Mat) (bk : Bias) (Wv : Mat) (bv : Bias) (Wo : Mat) (bo : Bias)
    (b : Fin 2) (n : Fin 2048) (f : Fin 1024) : EReal :=
  (∑ e : Fin 1024, attend x Wq bq Wk bk Wv bv b (headOf e) n (laneOf e) * Wo (ix2 f e)) + bo (ix1 f)

/-- The layer's output array. -/
def mha (x : Act) (Wq : Mat) (bq : Bias) (Wk : Mat) (bk : Bias) (Wv : Mat) (bv : Bias) (Wo : Mat) (bo : Bias) : Act :=
  fun i => mhaAt x Wq bq Wk bk Wv bv Wo bo (i 0) (i 1) (i 2)

theorem mha_apply (x : Act) (Wq : Mat) (bq : Bias) (Wk : Mat) (bk : Bias) (Wv : Mat) (bv : Bias) (Wo : Mat) (bo : Bias)
    (b : Fin 2) (n : Fin 2048) (f : Fin 1024) :
    mha x Wq bq Wk bk Wv bv Wo bo (ix3 b n f) = mhaAt x Wq bq Wk bk Wv bv Wo bo b n f := rfl

end Cert.Mha

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«181749_j403726926150_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.KSpec.lean ====
/-
  What each kernel region leaves in its output arrays, as whole-array functions of the arrays the region reads.

  The projection region writes, for each of the three column groups s of the fused weight (queries, keys, values),
  the [2, 16, 2048, 64] array whose entry (b, h, n, d) is row (b, n) of the activation times column 1024 s + 64 h + d of
  the fused weight, plus that column's bias. The attention region writes, per merged batch-and-head index, the softmax
  of the scaled logits of a query row against all key rows, applied to the value rows. The output region lays the heads
  of a row side by side, multiplies by the weight and adds the bias row.
-/
import proofs.«181749_j403726926150_2_alg».proof.Proof.Spec
import proofs.«181749_j403726926150_2_alg».proof.KernelIdeal
import Idealize.ShloMosaic.Lib.ValueIdx

noncomputable section

namespace Cert.KernelIdeal.Val

open Cert.KernelIdeal Idealize.ShloMosaic Idealize.ShloMosaic.ValueIdx Cert.Mha

/-- Column 1024 s + f of the fused [1024, 3072] weight: feature f of group s. -/
def col (s : Fin 3) (f : Fin 1024) : Fin 3072 := ⟨s.val * 1024 + f.val, by have := s.isLt; have := f.isLt; omega⟩
theorem col_val (s : Fin 3) (f : Fin 1024) : (col s f).val = s.val * 1024 + f.val := rfl

/-- The projection region's output for group s at (b, h, n, d). -/
def projAt (s : Fin 3) (x : S2x2048x1024.Idx → EReal) (w : S1024x3072.Idx → EReal) (β : S1x3072.Idx → EReal)
    (b : Fin 2) (h : Fin 16) (n : Fin 2048) (d : Fin 64) : EReal :=
  (∑ e : Fin 1024, x (ix3 b n e) * w (ix2 e (col s (feat h d)))) + β (ix2 (0 : Fin 1) (col s (feat h d)))
def projArr (s : Fin 3) (x : S2x2048x1024.Idx → EReal) (w : S1024x3072.Idx → EReal) (β : S1x3072.Idx → EReal) :
    S2x16x2048x64.Idx → EReal := fun i => projAt s x w β (i 0) (i 1) (i 2) (i 3)
theorem projArr_apply (s : Fin 3) (x : S2x2048x1024.Idx → EReal) (w : S1024x3072.Idx → EReal) (β : S1x3072.Idx → EReal)
    (b : Fin 2) (h : Fin 16) (n : Fin 2048) (d : Fin 64) : projArr s x w β (ix4 b h n d) = projAt s x w β b h n d := rfl

/-- The attention region's output at merged batch-and-head index g, row n, lane d. -/
def attnAt (q k v : S32x2048x64.Idx → EReal) (g : Fin 32) (n : Fin 2048) (d : Fin 64) : EReal :=
  ∑ j : Fin 2048, softmaxRow (fun j' : Fin 2048 => (∑ d' : Fin 64, q (ix3 g n d') * k (ix3 g j' d')) * ((1 / 32 : ℝ) : EReal)) j
    * v (ix3 g j d)
def attnArr (q k v : S32x2048x64.Idx → EReal) : S32x2048x64.Idx → EReal := fun i => attnAt q k v (i 0) (i 1) (i 2)
theorem attnArr_apply (q k v : S32x2048x64.Idx → EReal) (g : Fin 32) (n : Fin 2048) (d : Fin 64) :
    attnArr q k v (ix3 g n d) = attnAt q k v g n d := rfl

/-- The output region's output at batch b, row n, feature f. -/
def outAt (a : S2x16x2048x64.Idx → EReal) (w : S1024x1024.Idx → EReal) (β : S1x1024.Idx → EReal)
    (b : Fin 2) (n : Fin 2048) (f : Fin 1024) : EReal :=
  (∑ e : Fin 1024, a (ix4 b (headOf e) n (laneOf e)) * w (ix2 e f)) + β (ix2 (0 : Fin 1) f)
def outArr (a : S2x16x2048x64.Idx → EReal) (w : S1024x1024.Idx → EReal) (β : S1x1024.Idx → EReal) :
    S2x2048x1024.Idx → EReal := fun i => outAt a w β (i 0) (i 1) (i 2)
theorem outArr_apply (a : S2x16x2048x64.Idx → EReal) (w : S1024x1024.Idx → EReal) (β : S1x1024.Idx → EReal)
    (b : Fin 2) (n : Fin 2048) (f : Fin 1024) : outArr a w β (ix3 b n f) = outAt a w β b n f := rfl

end Cert.KernelIdeal.Val

end
-- ==== Proof.Pay0.lean ====
/-
  The fused query / key / value projection kernel's body read at an entry, over the extended reals.

  The body multiplies a [1, 512, 1024] block of activations (as a [512, 1024] matrix) by a [1024, 3072] matrix whose
  columns are the three projections' weights side by side, adds a bias row, and cuts the [512, 3072] result into three
  [512, 1024] column bands at offsets 0, 1024 and 2048. Each band is split into sixteen heads of 64 lanes (feature
  64 h + d is lane d of head h), the head axis is moved in front of the row axis, and a unit axis is put in front. Over
  the extended reals the narrowing format changes are the identity and the matrix unit's product into a zero accumulator
  is the plain sum over the contracted feature, so entry (0, h, r, d) of band s is
  (∑ e, x (0, r, e) * W (e, 1024 s + 64 h + d)) + bias (0, 1024 s + 64 h + d).
-/
import proofs.«181749_j403726926150_2_alg».proof.Proof.Gen.KernelIdeal.Skeleton
import proofs.«181749_j403726926150_2_alg».proof.Proof.Spec
import proofs.«181749_j403726926150_2_alg».proof.Proof.LibDotApply
import proofs.«181749_j403726926150_2_alg».proof.Proof.KSpec
import Idealize.ShloMosaic.Lib.ValueLayout

noncomputable section

namespace Cert.KernelIdeal.Pay

open Idealize.ShloMosaic Idealize.ShloMosaic.ValueIdx Cert.KernelIdeal.Gen
open Cert.KernelIdeal.Val (col)

/-- A [b, 1024] array split to [b, 16, 64] reads, at (r, h, d), the operand at (r, 64 h + d): the two row-major
positions are r * 1024 + (h * 64 + d) and (r * 16 + h) * 64 + d. -/
theorem shapeCast_split_apply {α : Type} {b : ℕ} (x : (⟨2, ![b, 1024]⟩ : Shape).Idx → α)
    (hc : (⟨2, ![b, 1024]⟩ : Shape).ShapeCasts ⟨3, ![b, 16, 64]⟩) (r : Fin b) (h : Fin 16) (d : Fin 64) :
    shapeCast ⟨3, ![b, 16, 64]⟩ x hc (ix3 r h d) = x (ix2 r (Cert.Mha.feat h d)) :=
  shapeCast_apply x hc _ _ (by
    rw [Shape.rowMajor_val_two, Shape.rowMajor_val_three]
    show r.val * 1024 + (h.val * 64 + d.val) = (r.val * 16 + h.val) * 64 + d.val
    omega)

/-- A rank-3 array with its first two axes swapped (permutation [1, 0, 2]) reads, at (j, i, k), the operand at
(i, j, k). -/
theorem transpose_swap01_apply {α : Type} {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- The fused projection x · W + bias at entry (r, c) of its [512, 3072] result. -/
theorem pay1_apply (x0 : Vec Ideal S1x512x1024 .f32) (x1 : Vec Ideal S1024x3072 .bf16) (x2 : Vec Ideal S1x3072 .f32)
    (r : Fin 512) (c : Fin 3072) :
    k0_pay1 x0 x1 x2 (ix2 r c)
      = (∑ e : Fin 1024, x0 (ix3 (0 : Fin 1) r e) * x1 (ix2 e c)) + x2 (ix2 (0 : Fin 1) c) := by
  unfold k0_pay1
  rw [addf_apply]
  refine congrArg₂ (· + ·) ?_ ?_
  · refine (Cert.LibDotApply.matmul_zero_apply _ ⟨rfl, rfl, rfl, rfl, rfl, rfl⟩ none _ _ _ _).trans ?_
    refine Finset.sum_congr rfl fun e _ => ?_
    rw [shapeCast_self]
    refine congrArg (· * _) ?_
    refine (truncf_apply (ψ := .bf16) _ bitsLt_bf16_f32 _).trans ?_
    exact shapeCast_1ab_ab_apply _ _ _ _
  · refine (broadcastTo_1b_ab_apply _ _ _ _).trans ?_
    rw [shapeCast_self]

/-- One column band of a [512, 3072] array from offset o, narrowed, split into heads, with the head axis moved in front
and a unit axis added, reads at (0, h, r, d) the array at (r, k) with k = o + (64 h + d). -/
theorem band_apply (X : FVec Ideal S512x3072 .f32) (o : ℕ) (hs : S512x3072.Slices ![0, o] S512x1024)
    (h : Fin 16) (r : Fin 512) (d : Fin 64) (k : Fin 3072) (hk : k.val = o + (Cert.Mha.feat h d).val) :
    shapeCast S1x16x512x64
        (transpose S16x512x64 [1, 0, 2]
          (shapeCast S512x16x64 (truncf .bf16 (extractStridedSlice S512x1024 ![0, o] X hs) bitsLt_bf16_f32)
            shapeCasts_S512x1024_S512x16x64)
          transposes_S512x16x64_p1_0_2_S16x512x64)
        shapeCasts_S16x512x64_S1x16x512x64 (ix4 (0 : Fin 1) h r d)
      = X (ix2 r k) := by
  refine (shapeCast_abc_1abc_apply _ _ _ _ _ _).trans ?_
  refine (transpose_swap01_apply _ _ _ _ _).trans ?_
  refine (shapeCast_split_apply _ _ _ _ _).trans ?_
  refine (truncf_apply (ψ := .bf16) _ bitsLt_bf16_f32 _).trans ?_
  exact slice2_axis1_apply o X hs r (Cert.Mha.feat h d) k hk

/-- The query band at entry (0, h, r, d). -/
theorem pay_q (x0 : Vec Ideal S1x512x1024 .f32) (x1 : Vec Ideal S1024x3072 .bf16) (x2 : Vec Ideal S1x3072 .f32)
    (h : Fin 16) (r : Fin 512) (d : Fin 64) :
    k0_pay2 x0 x1 x2 (ix4 (0 : Fin 1) h r d)
      = (∑ e : Fin 1024, x0 (ix3 (0 : Fin 1) r e) * x1 (ix2 e (col 0 (Cert.Mha.feat h d))))
        + x2 (ix2 (0 : Fin 1) (col 0 (Cert.Mha.feat h d))) := by
  unfold k0_pay2
  refine (band_apply _ 0 _ h r d (col 0 (Cert.Mha.feat h d)) ?_).trans (pay1_apply x0 x1 x2 r _)
  show 0 * 1024 + (Cert.Mha.feat h d).val = 0 + (Cert.Mha.feat h d).val
  omega

/-- The key band at entry (0, h, r, d). -/
theorem pay_k (x0 : Vec Ideal S1x512x1024 .f32) (x1 : Vec Ideal S1024x3072 .bf16) (x2 : Vec Ideal S1x3072 .f32)
    (h : Fin 16) (r : Fin 512) (d : Fin 64) :
    k0_pay3 x0 x1 x2 (ix4 (0 : Fin 1) h r d)
      = (∑ e : Fin 1024, x0 (ix3 (0 : Fin 1) r e) * x1 (ix2 e (col 1 (Cert.Mha.feat h d))))
        + x2 (ix2 (0 : Fin 1) (col 1 (Cert.Mha.feat h d))) := by
  unfold k0_pay3
  refine (band_apply _ 1024 _ h r d (col 1 (Cert.Mha.feat h d)) ?_).trans (pay1_apply x0 x1 x2 r _)
  show 1 * 1024 + (Cert.Mha.feat h d).val = 1024 + (Cert.Mha.feat h d).val
  omega

/-- The value band at entry (0, h, r, d). -/
theorem pay_v (x0 : Vec Ideal S1x512x1024 .f32) (x1 : Vec Ideal S1024x3072 .bf16) (x2 : Vec Ideal S1x3072 .f32)
    (h : Fin 16) (r : Fin 512) (d : Fin 64) :
    k0_pay4 x0 x1 x2 (ix4 (0 : Fin 1) h r d)
      = (∑ e : Fin 1024, x0 (ix3 (0 : Fin 1) r e) * x1 (ix2 e (col 2 (Cert.Mha.feat h d))))
        + x2 (ix2 (0 : Fin 1) (col 2 (Cert.Mha.feat h d))) := by
  unfold k0_pay4
  refine (band_apply _ 2048 _ h r d (col 2 (Cert.Mha.feat h d)) ?_).trans (pay1_apply x0 x1 x2 r _)
  show 2 * 1024 + (Cert.Mha.feat h d).val = 2048 + (Cert.Mha.feat h d).val
  omega

end Cert.KernelIdeal.Pay

end
-- ==== Proof.Arr0.lean ====
/-
  From the projection region's blocks to its three output arrays.

  The region runs on a 2 × 4 grid. At point (b, i) the activation window holds rows 512 i … 512 i + 511 of batch b of
  the activation array; the fused weight and the bias row are held whole at every point; and each of the three output
  windows is written back to rows 512 i … 512 i + 511, all sixteen heads, of batch b of its output array. So what a
  point writes back to output s is its block of one function of the three whole arrays: entry (b, h, n, d) is row (b, n)
  of the activations times column 1024 s + 64 h + d of the fused weight, plus that column's bias. The eight blocks tile
  each output array, so after the region each output array is that function.
-/
import proofs.«181749_j403726926150_2_alg».proof.Proof.Body0
import proofs.«181749_j403726926150_2_alg».proof.Proof.Pay0
import proofs.«181749_j403726926150_2_alg».proof.Proof.KSpec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem zero2_0 : (![0, 0] : Fin 2 → Nat) = fun _ => 0 := funext fun a => by fin_cases a <;> rfl
theorem zero3_0 : (![0, 0, 0] : Fin 3 → Nat) = fun _ => 0 := funext fun a => by fin_cases a <;> rfl
theorem zero4_0 : (![0, 0, 0, 0] : Fin 4 → Nat) = fun _ => 0 := funext fun a => by fin_cases a <;> rfl

/-- The index maps over the grid: the activation window's batch and row-block indices are the first output window's,
    its feature-block index is 0; the weight's and the bias row's block indices are 0; the output's batch index is at
    most 1, its row-block index at most 3, its head-block and lane-block indices are 0; the three output windows have
    one index map. -/
theorem index_facts0 : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) ≤ 1 ∧ win0_3.index t (1 : Fin 4) = 0 ∧ win0_3.index t (2 : Fin 4) ≤ 3 ∧ win0_3.index t (3 : Fin 4) = 0
    ∧ win0_4.index t = win0_3.index t ∧ win0_5.index t = win0_3.index t :=
  (by decide +kernel : ∀ t : Fin grid0.N, _)

/-- Every output block is some point's. -/
theorem index_onto0 : ∀ (b : Fin 2) (i : Fin 4), ∃ t : Fin cfg0.N, win0_3.index t = ![b.val, 0, i.val, 0] :=
  (by decide +kernel : ∀ (b : Fin 2) (i : Fin 4), ∃ t : Fin grid0.N, win0_3.index t = ![b.val, 0, i.val, 0])

/-- The activation window's block at a point, read at an entry: the activation array at the block's offset plus the
    entry. -/
theorem iblk0_0_apply (c : Dev nD) (t : Fin cfg0.N) (x : S1x512x1024.Idx) (k : S2x2048x1024.Idx)
    (h0 : (k 0).val = win0_0.index t (0 : Fin 3) * 1 + 1 * (x 0).val)
    (h1 : (k 1).val = win0_0.index t (1 : Fin 3) * 512 + 1 * (x 1).val)
    (h2 : (k 2).val = win0_0.index t (2 : Fin 3) * 1024 + 1 * (x 2).val) :
    (iblk0 V c 0 t : Vec Ideal S1x512x1024 .f32) x = (V c main_arg0 : S2x2048x1024.Idx → EReal) k := by
  unfold iblk0
  rw [View.read_apply]
  show (V c main_arg0 : S2x2048x1024.Idx → EReal) _ = _
  congr 1
  funext a; apply Fin.ext
  match a with
  | ⟨0, _⟩ => exact h0.symm
  | ⟨1, _⟩ => exact h1.symm
  | ⟨2, _⟩ => exact h2.symm

/-- The weight window's block at a point, read at an entry. -/
theorem iblk0_1_apply (c : Dev nD) (t : Fin cfg0.N) (x : S1024x3072.Idx) (k : S1024x3072.Idx)
    (h0 : (k 0).val = win0_1.index t (0 : Fin 2) * 1024 + 1 * (x 0).val)
    (h1 : (k 1).val = win0_1.index t (1 : Fin 2) * 3072 + 1 * (x 1).val) :
    (iblk0 V c 1 t : Vec Ideal S1024x3072 .bf16) x = (V c main_v4 : S1024x3072.Idx → EReal) k := by
  unfold iblk0
  rw [View.read_apply]
  show (V c main_v4 : S1024x3072.Idx → EReal) _ = _
  congr 1
  funext a; apply Fin.ext
  match a with
  | ⟨0, _⟩ => exact h0.symm
  | ⟨1, _⟩ => exact h1.symm

/-- The bias window's block at a point, read at an entry. -/
theorem iblk0_2_apply (c : Dev nD) (t : Fin cfg0.N) (x : S1x3072.Idx) (k : S1x3072.Idx)
    (h0 : (k 0).val = win0_2.index t (0 : Fin 2) * 1 + 1 * (x 0).val)
    (h1 : (k 1).val = win0_2.index t (1 : Fin 2) * 3072 + 1 * (x 1).val) :
    (iblk0 V c 2 t : Vec Ideal S1x3072 .f32) x = (V c main_v6 : S1x3072.Idx → EReal) k := by
  unfold iblk0
  rw [View.read_apply]
  show (V c main_v6 : S1x3072.Idx → EReal) _ = _
  congr 1
  funext a; apply Fin.ext
  match a with
  | ⟨0, _⟩ => exact h0.symm
  | ⟨1, _⟩ => exact h1.symm

/-- Row r of an activation block times a column of the weight block plus the bias, when row r of the block is row
    (b, n) of the activation array and the weight and bias blocks are the whole arrays: the projection at (b, h, n, d). -/
theorem proj_at0 (s : Fin 3) (x0 : Vec Ideal S1x512x1024 .f32) (x1 : Vec Ideal S1024x3072 .bf16) (x2 : Vec Ideal S1x3072 .f32)
    (x : S2x2048x1024.Idx → EReal) (w : S1024x3072.Idx → EReal) (β : S1x3072.Idx → EReal)
    (h : Fin 16) (r : Fin 512) (d : Fin 64) (b : Fin 2) (n : Fin 2048)
    (hx : ∀ e : Fin 1024, x0 (ix3 (0 : Fin 1) r e) = x (ix3 b n e))
    (hw : ∀ (e : Fin 1024) (k : Fin 3072), x1 (ix2 e k) = w (ix2 e k))
    (hβ : ∀ k : Fin 3072, x2 (ix2 (0 : Fin 1) k) = β (ix2 (0 : Fin 1) k)) :
    (∑ e : Fin 1024, x0 (ix3 (0 : Fin 1) r e) * x1 (ix2 e (col s (Cert.Mha.feat h d))))
        + x2 (ix2 (0 : Fin 1) (col s (Cert.Mha.feat h d)))
      = projArr s x w β (ix4 b h n d) := by
  rw [projArr_apply]
  unfold projAt
  rw [hβ]
  refine congrArg (· + β (ix2 (0 : Fin 1) (col s (Cert.Mha.feat h d)))) (Finset.sum_congr rfl fun e _ => ?_)
  rw [hx e, hw e]

/-- What a point's body leaves in an output window at entry (0, h, r, d), for a payload that reads there as column group
    s of the fused projection: the projection array of group s at (b, h, n, d), with b the point's batch and n the
    point's row block's row r. -/
theorem block_core0 (c : Dev nD) (t : Fin cfg0.N) (s : Fin 3)
    (P : Vec Ideal S1x512x1024 .f32 → Vec Ideal S1024x3072 .bf16 → Vec Ideal S1x3072 .f32 → Vec Ideal S1x16x512x64 .bf16)
    (hP : ∀ (x0 : Vec Ideal S1x512x1024 .f32) (x1 : Vec Ideal S1024x3072 .bf16) (x2 : Vec Ideal S1x3072 .f32)
      (h : Fin 16) (r : Fin 512) (d : Fin 64),
      P x0 x1 x2 (ix4 (0 : Fin 1) h r d)
        = (∑ e : Fin 1024, x0 (ix3 (0 : Fin 1) r e) * x1 (ix2 e (col s (Cert.Mha.feat h d))))
          + x2 (ix2 (0 : Fin 1) (col s (Cert.Mha.feat h d))))
    (h : Fin 16) (r : Fin 512) (d : Fin 64) (b : Fin 2) (n : Fin 2048)
    (hb : b.val = win0_3.index t (0 : Fin 4)) (hn : n.val = win0_3.index t (2 : Fin 4) * 512 + r.val) :
    P (iblk0 V c 0 t) (iblk0 V c 1 t) (iblk0 V c 2 t) (ix4 (0 : Fin 1) h r d)
      = projArr s (V c main_arg0) (V c main_v4) (V c main_v6) (ix4 b h n d) := by
  obtain ⟨e00, e01, e02, e10, e11, e20, e21, b0, b1, b2, b3, e4, e5⟩ := index_facts0 t
  rw [hP]
  refine proj_at0 s _ _ _ _ _ _ h r d b n (fun e => ?_) (fun e k => ?_) (fun k => ?_)
  · refine iblk0_0_apply V c t _ _ ?_ ?_ ?_
    · show b.val = win0_0.index t (0 : Fin 3) * 1 + 1 * 0; omega
    · show n.val = win0_0.index t (1 : Fin 3) * 512 + 1 * r.val; omega
    · show e.val = win0_0.index t (2 : Fin 3) * 1024 + 1 * e.val; omega
  · refine iblk0_1_apply V c t _ _ ?_ ?_
    · show e.val = win0_1.index t (0 : Fin 2) * 1024 + 1 * e.val; omega
    · show k.val = win0_1.index t (1 : Fin 2) * 3072 + 1 * k.val; omega
  · refine iblk0_2_apply V c t _ _ ?_ ?_
    · show 0 = win0_2.index t (0 : Fin 2) * 1 + 1 * 0; omega
    · show k.val = win0_2.index t (1 : Fin 2) * 3072 + 1 * k.val; omega

/-- Every index of an output array lies in the block of the point its batch and its row block name. -/
theorem point_of0 (i : S2x16x2048x64.Idx) : ∃ t : Fin cfg0.N, ∀ a : Fin 4,
    win0_3.index t a * S1x16x512x64.size a ≤ (i a).val
      ∧ (i a).val < win0_3.index t a * S1x16x512x64.size a + S1x16x512x64.size a := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := index_onto0 ⟨(i 0).val, h0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, fun a => ?_⟩
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 16 ≤ (i 1).val ∧ (i 1).val < win0_3.index t (1 : Fin 4) * 16 + 16
    omega
  | ⟨2, _⟩ =>
    show win0_3.index t (2 : Fin 4) * 512 ≤ (i 2).val ∧ (i 2).val < win0_3.index t (2 : Fin 4) * 512 + 512
    omega
  | ⟨3, _⟩ =>
    show win0_3.index t (3 : Fin 4) * 64 ≤ (i 3).val ∧ (i 3).val < win0_3.index t (3 : Fin 4) * 64 + 64
    omega

/-! ## Output window 3: column group 0 of the fused projection -/

/-- Where output window 3's block at a point puts its entry (0, h, r, d): at (b, h, n, d) of the output array, b the
    point's batch index and n row r of the point's row block. -/
theorem emb0_3 (t : Fin cfg0.N) (h : Fin 16) (r : Fin 512) (d : Fin 64) :
    ∃ (b : Fin 2) (n : Fin 2048), b.val = win0_3.index t (0 : Fin 4) ∧ n.val = win0_3.index t (2 : Fin 4) * 512 + r.val
      ∧ ((cfg0.win 3).blk t).view.emb (ix4 (0 : Fin 1) h r d) = ix4 b h n d := by
  obtain ⟨e00, e01, e02, e10, e11, e20, e21, b0, b1, b2, b3, e4, e5⟩ := index_facts0 t
  have hr : r.val < 512 := r.isLt
  have hb : win0_3.index t (0 : Fin 4) < 2 := by omega
  have hn : win0_3.index t (2 : Fin 4) * 512 + r.val < 2048 := by omega
  refine ⟨⟨win0_3.index t (0 : Fin 4), hb⟩, ⟨win0_3.index t (2 : Fin 4) * 512 + r.val, hn⟩, rfl, rfl, ?_⟩
  funext a; apply Fin.ext
  match a with
  | ⟨0, _⟩ => show win0_3.index t (0 : Fin 4) * 1 + 1 * 0 = win0_3.index t (0 : Fin 4); omega
  | ⟨1, _⟩ => show win0_3.index t (1 : Fin 4) * 16 + 1 * h.val = h.val; omega
  | ⟨2, _⟩ => show win0_3.index t (2 : Fin 4) * 512 + 1 * r.val = win0_3.index t (2 : Fin 4) * 512 + r.val; omega
  | ⟨3, _⟩ => show win0_3.index t (3 : Fin 4) * 64 + 1 * d.val = d.val; omega

/-- What a point's body leaves in output window 3, entry by entry: group 0's projection at the array index the
    window's block puts the entry at. -/
theorem block0_3 (c : Dev nD) (t : Fin cfg0.N) (j : S1x16x512x64.Idx) :
    k0_pay2 (iblk0 V c 0 t) (iblk0 V c 1 t) (iblk0 V c 2 t) j
      = projArr 0 (V c main_arg0) (V c main_v4) (V c main_v6) (((cfg0.win 3).blk t).view.emb j) := by
  obtain ⟨u, h, r, d, rfl⟩ : ∃ (u : Fin 1) (h : Fin 16) (r : Fin 512) (d : Fin 64), j = ix4 u h r d :=
    ⟨j 0, j 1, j 2, j 3, eq_ix4 j⟩
  obtain rfl : u = 0 := Subsingleton.elim _ _
  obtain ⟨b, n, hb, hn, he⟩ := emb0_3 t h r d
  rw [he]
  exact block_core0 V c t 0 k0_pay2 (fun x0 x1 x2 h r d => pay_q x0 x1 x2 h r d) h r d b n hb hn

/-- What a point writes back to output window 3's array is its block of group 0's projection of the three arrays as
    the region finds them. -/
theorem flushed0_3_eq (c : Dev nD) (t : Fin cfg0.N) :
    (dat0 (F := Ideal) V c).flushed 3 t
      = ((cfg0.win 3).blk t).view.read (Elt Ideal) (projArr 0 (V c main_arg0) (V c main_v4) (V c main_v6)) := by
  show (cfg0.win 3).cut (grid0.coords t) ((dat0 (F := Ideal) V c).after 3 t) = _
  rw [after0_3]
  unfold out0_3
  rw [View.canon_unit_zero zero4_0]
  simp only [View.ld_unit_zero (S := S1x512x1024) zero3_0, View.ld_unit_zero (S := S1024x3072) zero2_0,
    View.ld_unit_zero (S := S1x3072) zero2_0]
  funext j
  exact block0_3 V c t j

/-- An index of output window 3's array is in a point's block iff each coordinate is in the block's range on its axis. -/
theorem mem_blk0_3 (t : Fin cfg0.N) (i : S2x16x2048x64.Idx) :
    i ∈ ((cfg0.win 3).blk t).view.set
      ↔ ∀ a : Fin 4, win0_3.index t a * S1x16x512x64.size a ≤ (i a).val
          ∧ (i a).val < win0_3.index t a * S1x16x512x64.size a + S1x16x512x64.size a := by
  show i ∈ ((View.whole main_v7_0).slice (win0_3.rect t)).set ↔ _
  rw [View.set_slice_whole, Rect.mem_set_unit]
  exact Iff.rfl

/-- The eight blocks cover output window 3's array. -/
theorem cover0_3 (i : S2x16x2048x64.Idx) :
    ∃ t : Fin cfg0.N, (cfg0.win 3).flush t = true ∧ i ∈ ((cfg0.win 3).blk t).view.set := by
  obtain ⟨t, ht⟩ := point_of0 i
  refine ⟨t, flush0_3 t, ?_⟩
  rw [mem_blk0_3]
  exact ht

/-- Output window 3's array after the region: group 0's projection of the activations, the fused weight and the bias
    row as the region finds them. -/
theorem arr0_q (c : Dev nD) :
    (dat0 (F := Ideal) V c).arrAt 3 cfg0.N = projArr 0 (V c main_arg0) (V c main_v4) (V c main_v6) :=
  (dat0 (F := Ideal) V c).arrAt_eq_of_cover 3 (projArr 0 (V c main_arg0) (V c main_v4) (V c main_v6))
    (fun t _ => flushed0_3_eq V c t) cover0_3

/-! ## Output window 4: column group 1 of the fused projection -/

/-- Where output window 4's block at a point puts its entry (0, h, r, d): at (b, h, n, d) of the output array, b the
    point's batch index and n row r of the point's row block. -/
theorem emb0_4 (t : Fin cfg0.N) (h : Fin 16) (r : Fin 512) (d : Fin 64) :
    ∃ (b : Fin 2) (n : Fin 2048), b.val = win0_3.index t (0 : Fin 4) ∧ n.val = win0_3.index t (2 : Fin 4) * 512 + r.val
      ∧ ((cfg0.win 4).blk t).view.emb (ix4 (0 : Fin 1) h r d) = ix4 b h n d := by
  obtain ⟨e00, e01, e02, e10, e11, e20, e21, b0, b1, b2, b3, e4, e5⟩ := index_facts0 t
  have hr : r.val < 512 := r.isLt
  have hb : win0_3.index t (0 : Fin 4) < 2 := by omega
  have hn : win0_3.index t (2 : Fin 4) * 512 + r.val < 2048 := by omega
  refine ⟨⟨win0_3.index t (0 : Fin 4), hb⟩, ⟨win0_3.index t (2 : Fin 4) * 512 + r.val, hn⟩, rfl, rfl, ?_⟩
  funext a; apply Fin.ext
  match a with
  | ⟨0, _⟩ => show win0_4.index t (0 : Fin 4) * 1 + 1 * 0 = win0_3.index t (0 : Fin 4); rw [e4]; omega
  | ⟨1, _⟩ => show win0_4.index t (1 : Fin 4) * 16 + 1 * h.val = h.val; rw [e4]; omega
  | ⟨2, _⟩ => show win0_4.index t (2 : Fin 4) * 512 + 1 * r.val = win0_3.index t (2 : Fin 4) * 512 + r.val; rw [e4]; omega
  | ⟨3, _⟩ => show win0_4.index t (3 : Fin 4) * 64 + 1 * d.val = d.val; rw [e4]; omega

/-- What a point's body leaves in output window 4, entry by entry: group 1's projection at the array index the
    window's block puts the entry at. -/
theorem block0_4 (c : Dev nD) (t : Fin cfg0.N) (j : S1x16x512x64.Idx) :
    k0_pay3 (iblk0 V c 0 t) (iblk0 V c 1 t) (iblk0 V c 2 t) j
      = projArr 1 (V c main_arg0) (V c main_v4) (V c main_v6) (((cfg0.win 4).blk t).view.emb j) := by
  obtain ⟨u, h, r, d, rfl⟩ : ∃ (u : Fin 1) (h : Fin 16) (r : Fin 512) (d : Fin 64), j = ix4 u h r d :=
    ⟨j 0, j 1, j 2, j 3, eq_ix4 j⟩
  obtain rfl : u = 0 := Subsingleton.elim _ _
  obtain ⟨b, n, hb, hn, he⟩ := emb0_4 t h r d
  rw [he]
  exact block_core0 V c t 1 k0_pay3 (fun x0 x1 x2 h r d => pay_k x0 x1 x2 h r d) h r d b n hb hn

/-- What a point writes back to output window 4's array is its block of group 1's projection of the three arrays as
    the region finds them. -/
theorem flushed0_4_eq (c : Dev nD) (t : Fin cfg0.N) :
    (dat0 (F := Ideal) V c).flushed 4 t
      = ((cfg0.win 4).blk t).view.read (Elt Ideal) (projArr 1 (V c main_arg0) (V c main_v4) (V c main_v6)) := by
  show (cfg0.win 4).cut (grid0.coords t) ((dat0 (F := Ideal) V c).after 4 t) = _
  rw [after0_4]
  unfold out0_4
  rw [View.canon_unit_zero zero4_0]
  simp only [View.ld_unit_zero (S := S1x512x1024) zero3_0, View.ld_unit_zero (S := S1024x3072) zero2_0,
    View.ld_unit_zero (S := S1x3072) zero2_0]
  funext j
  exact block0_4 V c t j

/-- An index of output window 4's array is in a point's block iff each coordinate is in the block's range on its axis. -/
theorem mem_blk0_4 (t : Fin cfg0.N) (i : S2x16x2048x64.Idx) :
    i ∈ ((cfg0.win 4).blk t).view.set
      ↔ ∀ a : Fin 4, win0_4.index t a * S1x16x512x64.size a ≤ (i a).val
          ∧ (i a).val < win0_4.index t a * S1x16x512x64.size a + S1x16x512x64.size a := by
  show i ∈ ((View.whole main_v7_1).slice (win0_4.rect t)).set ↔ _
  rw [View.set_slice_whole, Rect.mem_set_unit]
  exact Iff.rfl

/-- The eight blocks cover output window 4's array. -/
theorem cover0_4 (i : S2x16x2048x64.Idx) :
    ∃ t : Fin cfg0.N, (cfg0.win 4).flush t = true ∧ i ∈ ((cfg0.win 4).blk t).view.set := by
  obtain ⟨t, ht⟩ := point_of0 i
  refine ⟨t, flush0_4 t, ?_⟩
  rw [mem_blk0_4, (index_facts0 t).2.2.2.2.2.2.2.2.2.2.2.1]
  exact ht

/-- Output window 4's array after the region: group 1's projection of the activations, the fused weight and the bias
    row as the region finds them. -/
theorem arr0_k (c : Dev nD) :
    (dat0 (F := Ideal) V c).arrAt 4 cfg0.N = projArr 1 (V c main_arg0) (V c main_v4) (V c main_v6) :=
  (dat0 (F := Ideal) V c).arrAt_eq_of_cover 4 (projArr 1 (V c main_arg0) (V c main_v4) (V c main_v6))
    (fun t _ => flushed0_4_eq V c t) cover0_4

/-! ## Output window 5: column group 2 of the fused projection -/

/-- Where output window 5's block at a point puts its entry (0, h, r, d): at (b, h, n, d) of the output array, b the
    point's batch index and n row r of the point's row block. -/
theorem emb0_5 (t : Fin cfg0.N) (h : Fin 16) (r : Fin 512) (d : Fin 64) :
    ∃ (b : Fin 2) (n : Fin 2048), b.val = win0_3.index t (0 : Fin 4) ∧ n.val = win0_3.index t (2 : Fin 4) * 512 + r.val
      ∧ ((cfg0.win 5).blk t).view.emb (ix4 (0 : Fin 1) h r d) = ix4 b h n d := by
  obtain ⟨e00, e01, e02, e10, e11, e20, e21, b0, b1, b2, b3, e4, e5⟩ := index_facts0 t
  have hr : r.val < 512 := r.isLt
  have hb : win0_3.index t (0 : Fin 4) < 2 := by omega
  have hn : win0_3.index t (2 : Fin 4) * 512 + r.val < 2048 := by omega
  refine ⟨⟨win0_3.index t (0 : Fin 4), hb⟩, ⟨win0_3.index t (2 : Fin 4) * 512 + r.val, hn⟩, rfl, rfl, ?_⟩
  funext a; apply Fin.ext
  match a with
  | ⟨0, _⟩ => show win0_5.index t (0 : Fin 4) * 1 + 1 * 0 = win0_3.index t (0 : Fin 4); rw [e5]; omega
  | ⟨1, _⟩ => show win0_5.index t (1 : Fin 4) * 16 + 1 * h.val = h.val; rw [e5]; omega
  | ⟨2, _⟩ => show win0_5.index t (2 : Fin 4) * 512 + 1 * r.val = win0_3.index t (2 : Fin 4) * 512 + r.val; rw [e5]; omega
  | ⟨3, _⟩ => show win0_5.index t (3 : Fin 4) * 64 + 1 * d.val = d.val; rw [e5]; omega

/-- What a point's body leaves in output window 5, entry by entry: group 2's projection at the array index the
    window's block puts the entry at. -/
theorem block0_5 (c : Dev nD) (t : Fin cfg0.N) (j : S1x16x512x64.Idx) :
    k0_pay4 (iblk0 V c 0 t) (iblk0 V c 1 t) (iblk0 V c 2 t) j
      = projArr 2 (V c main_arg0) (V c main_v4) (V c main_v6) (((cfg0.win 5).blk t).view.emb j) := by
  obtain ⟨u, h, r, d, rfl⟩ : ∃ (u : Fin 1) (h : Fin 16) (r : Fin 512) (d : Fin 64), j = ix4 u h r d :=
    ⟨j 0, j 1, j 2, j 3, eq_ix4 j⟩
  obtain rfl : u = 0 := Subsingleton.elim _ _
  obtain ⟨b, n, hb, hn, he⟩ := emb0_5 t h r d
  rw [he]
  exact block_core0 V c t 2 k0_pay4 (fun x0 x1 x2 h r d => pay_v x0 x1 x2 h r d) h r d b n hb hn

/-- What a point writes back to output window 5's array is its block of group 2's projection of the three arrays as
    the region finds them. -/
theorem flushed0_5_eq (c : Dev nD) (t : Fin cfg0.N) :
    (dat0 (F := Ideal) V c).flushed 5 t
      = ((cfg0.win 5).blk t).view.read (Elt Ideal) (projArr 2 (V c main_arg0) (V c main_v4) (V c main_v6)) := by
  show (cfg0.win 5).cut (grid0.coords t) ((dat0 (F := Ideal) V c).after 5 t) = _
  rw [after0_5]
  unfold out0_5
  rw [View.canon_unit_zero zero4_0]
  simp only [View.ld_unit_zero (S := S1x512x1024) zero3_0, View.ld_unit_zero (S := S1024x3072) zero2_0,
    View.ld_unit_zero (S := S1x3072) zero2_0]
  funext j
  exact block0_5 V c t j

/-- An index of output window 5's array is in a point's block iff each coordinate is in the block's range on its axis. -/
theorem mem_blk0_5 (t : Fin cfg0.N) (i : S2x16x2048x64.Idx) :
    i ∈ ((cfg0.win 5).blk t).view.set
      ↔ ∀ a : Fin 4, win0_5.index t a * S1x16x512x64.size a ≤ (i a).val
          ∧ (i a).val < win0_5.index t a * S1x16x512x64.size a + S1x16x512x64.size a := by
  show i ∈ ((View.whole main_v7_2).slice (win0_5.rect t)).set ↔ _
  rw [View.set_slice_whole, Rect.mem_set_unit]
  exact Iff.rfl

/-- The eight blocks cover output window 5's array. -/
theorem cover0_5 (i : S2x16x2048x64.Idx) :
    ∃ t : Fin cfg0.N, (cfg0.win 5).flush t = true ∧ i ∈ ((cfg0.win 5).blk t).view.set := by
  obtain ⟨t, ht⟩ := point_of0 i
  refine ⟨t, flush0_5 t, ?_⟩
  rw [mem_blk0_5, (index_facts0 t).2.2.2.2.2.2.2.2.2.2.2.2]
  exact ht

/-- Output window 5's array after the region: group 2's projection of the activations, the fused weight and the bias
    row as the region finds them. -/
theorem arr0_v (c : Dev nD) :
    (dat0 (F := Ideal) V c).arrAt 5 cfg0.N = projArr 2 (V c main_arg0) (V c main_v4) (V c main_v6) :=
  (dat0 (F := Ideal) V c).arrAt_eq_of_cover 5 (projArr 2 (V c main_arg0) (V c main_v4) (V c main_v6))
    (fun t _ => flushed0_5_eq V c t) cover0_5

end Cert.KernelIdeal.Val

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.KConsts.lean ====
/-
  The float constants the attention kernel spells, as the extended reals their patterns denote:
  the scale 1/32, the lower infinity a row maximum starts from, and the zero a row sum starts from.
-/
import Idealize.ShloMosaic.PureOps.Ideal

noncomputable section

namespace Cert.KernelIdeal.KConsts

open Idealize.ShloMosaic

/-- The pattern 0x3D000000 is 2⁻⁵: the real 1/32. -/
theorem ofBits_scale : Ideal.ofBits .f32 0x3D000000#32 = ((1 / 32 : ℝ) : EReal) := by
  simp [Ideal.ofBits, Ideal.ieee, -EReal.coe_mul]; norm_num

/-- The pattern 0xFF800000 is the lower infinity, the bottom element of the extended reals. -/
theorem ofBits_neg_inf : Ideal.ofBits .f32 0xFF800000#32 = ⊥ := by
  simp [Ideal.ofBits, Ideal.ieee]

/-- The pattern of +0.0 is zero. -/
theorem ofBits_zero : Ideal.ofBits .f32 0#32 = 0 := by
  simp [Ideal.ofBits, Ideal.ieee]

end Cert.KernelIdeal.KConsts

end
-- ==== Proof.Pay1.lean ====
/-
  The attention kernel's body read at an entry, over the extended reals.

  From a query block [1, 1024, 64], a key block [1, 2048, 64] and a value block [1, 2048, 64] the body forms the
  logits q · kᵀ scaled by 1/32, shifts each row by its maximum, exponentiates, divides by the row's sum and
  multiplies by the value block. At row r and lane d that is the sum over the 2048 key rows j of the softmax weight
  of row r at j times the value block at (j, d).
-/
import proofs.«181749_j403726926150_2_alg».proof.Proof.Gen.KernelIdeal.Skeleton
import proofs.«181749_j403726926150_2_alg».proof.Proof.Spec
import proofs.«181749_j403726926150_2_alg».proof.Proof.LibDotApply
import proofs.«181749_j403726926150_2_alg».proof.Proof.LibKeepdims
import proofs.«181749_j403726926150_2_alg».proof.Proof.KConsts
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-- The scaled logits: the query block times the transposed key block, every entry times 1/32. -/
def logits (q : FVec Ideal S1024x64 .bf16) (kT : FVec Ideal S64x2048 .bf16) : FVec Ideal S1024x2048 .f32 :=
  mulf (matmul dot_S1024x64_S64x2048_S1024x2048_1_0_0_1_n_n none q kT (constant S1024x2048 .f32 0x00000000#32))
    (broadcast S1024x2048 (Scalar.ofBits (F := Ideal) .f32 0x3D000000#32))

/-- Each row's maximum, from the lower infinity, put back at every entry of the row. -/
def rowMaxB (s : FVec Ideal S1024x2048 .f32) : FVec Ideal S1024x2048 .f32 :=
  broadcastTo S1024x2048
    (shapeCast S1024x1 (multiReduction .maximumf [1] S1024 s 0xFF800000#32 reduces_S1024x2048_S1024 (.inl rfl) rfl)
      shapeCasts_S1024_S1024x1)
    broadcasts_S1024x1_S1024x2048

/-- Each row's sum, from zero, put back at every entry of the row. -/
def rowSumB (p : FVec Ideal S1024x2048 .f32) : FVec Ideal S1024x2048 .f32 :=
  broadcastTo S1024x2048
    (shapeCast S1024x1 (multiReduction .add [1] S1024 p 0x00000000#32 reduces_S1024x2048_S1024 (.inl rfl) rfl)
      shapeCasts_S1024_S1024x1)
    broadcasts_S1024x1_S1024x2048

/-- The exponentials of the logits shifted by their row's maximum. -/
def expShift (s : FVec Ideal S1024x2048 .f32) : FVec Ideal S1024x2048 .f32 :=
  exp (subf s (rowMaxB s))

/-- The softmax weights: the shifted exponentials over their row's sum. -/
def weights (s : FVec Ideal S1024x2048 .f32) : FVec Ideal S1024x2048 .f32 :=
  divf (expShift s) (rowSumB (expShift s))

/-- The weights applied to the value block. -/
def applyWeights (w : FVec Ideal S1024x2048 .f32) (v : FVec Ideal S2048x64 .bf16) : FVec Ideal S1024x64 .bf16 :=
  truncf .bf16
    (matmul dot_S1024x2048_S2048x64_S1024x64_1_0_0_1_n_n none (truncf .bf16 w bitsLt_bf16_f32) v
      (constant S1024x64 .f32 0x00000000#32))
    bitsLt_bf16_f32

/-- The body's value is these steps composed. -/
theorem k1_pay1_eq (x0 : Vec Ideal S1x1024x64 .bf16) (x1 x2 : Vec Ideal S1x2048x64 .bf16) :
    k1_pay1 x0 x1 x2
      = shapeCast S1x1024x64
          (applyWeights
            (weights (logits (shapeCast S1024x64 x0 shapeCasts_S1x1024x64_S1024x64)
              (transpose S64x2048 [1, 0] (shapeCast S2048x64 x1 shapeCasts_S1x2048x64_S2048x64)
                transposes_S2048x64_p1_0_S64x2048)))
            (shapeCast S2048x64 x2 shapeCasts_S1x2048x64_S2048x64))
          shapeCasts_S1024x64_S1x1024x64 := rfl

/-- The scaled logits at (r, j): the product of query row r with row j of the untransposed key matrix, times 1/32. -/
theorem logits_apply (q : FVec Ideal S1024x64 .bf16) (kT : FVec Ideal S64x2048 .bf16) (r : Fin 1024) (j : Fin 2048) :
    logits q kT (ix2 r j) = (∑ d : Fin 64, q (ix2 r d) * kT (ix2 d j)) * ((1 / 32 : ℝ) : EReal) := by
  unfold logits
  refine (mulf_apply _ _ (ix2 r j)).trans ?_
  refine congrArg₂ (· * ·) ?_ ?_
  · exact Cert.LibDotApply.matmul_zero_apply _ ⟨rfl, rfl, rfl, rfl, rfl, rfl⟩ none q kT r j
  · exact KConsts.ofBits_scale

/-- The row maximum put back, at (r, j): the fold of max from the bottom element over row r. -/
theorem rowMaxB_apply (s : FVec Ideal S1024x2048 .f32) (r : Fin 1024) (j : Fin 2048) :
    rowMaxB s (ix2 r j) = Cert.Mha.rowMax (fun k : Fin 2048 => s (ix2 r k)) := by
  unfold rowMaxB
  refine (Cert.LibKeepdims.broadcastTo_a1_ab_apply _ broadcasts_S1024x1_S1024x2048 r j).trans ?_
  refine (Cert.LibKeepdims.shapeCast_a_a1_apply _ shapeCasts_S1024_S1024x1 r (0 : Fin 1)).trans ?_
  refine (Cert.LibKeepdims.multiReduction_max_row s 0xFF800000#32 reduces_S1024x2048_S1024 (.inl rfl) rfl r).trans ?_
  rw [KConsts.ofBits_neg_inf]
  rfl

/-- The row sum put back, at (r, j): the sum of row r. -/
theorem rowSumB_apply (p : FVec Ideal S1024x2048 .f32) (r : Fin 1024) (j : Fin 2048) :
    rowSumB p (ix2 r j) = ∑ k : Fin 2048, p (ix2 r k) := by
  unfold rowSumB
  refine (Cert.LibKeepdims.broadcastTo_a1_ab_apply _ broadcasts_S1024x1_S1024x2048 r j).trans ?_
  refine (Cert.LibKeepdims.shapeCast_a_a1_apply _ shapeCasts_S1024_S1024x1 r (0 : Fin 1)).trans ?_
  exact Cert.LibKeepdims.multiReduction_add_row p 0x00000000#32 reduces_S1024x2048_S1024 (.inl rfl) rfl r

/-- The shifted exponential at (r, j). -/
theorem expShift_apply (s : FVec Ideal S1024x2048 .f32) (r : Fin 1024) (j : Fin 2048) :
    expShift s (ix2 r j) = Ideal.exp (s (ix2 r j) - Cert.Mha.rowMax (fun k : Fin 2048 => s (ix2 r k))) := by
  unfold expShift
  show Ideal.exp (s (ix2 r j) - rowMaxB s (ix2 r j)) = _
  rw [rowMaxB_apply]

/-- The weights at (r, j): the softmax of row r at j. -/
theorem weights_apply (s : FVec Ideal S1024x2048 .f32) (r : Fin 1024) (j : Fin 2048) :
    weights s (ix2 r j) = Cert.Mha.softmaxRow (fun k : Fin 2048 => s (ix2 r k)) j := by
  unfold weights Cert.Mha.softmaxRow
  refine (divf_apply _ _ (ix2 r j)).trans ?_
  rw [rowSumB_apply, expShift_apply]
  exact congrArg (Ideal.div _) (Finset.sum_congr rfl fun k _ => expShift_apply s r k)

/-- The weights applied to the value block, at (r, d). -/
theorem applyWeights_apply (w : FVec Ideal S1024x2048 .f32) (v : FVec Ideal S2048x64 .bf16) (r : Fin 1024) (d : Fin 64) :
    applyWeights w v (ix2 r d) = ∑ j : Fin 2048, w (ix2 r j) * v (ix2 j d) := by
  unfold applyWeights
  refine (truncf_apply (ψ := .bf16) _ bitsLt_bf16_f32 (ix2 r d)).trans ?_
  exact Cert.LibDotApply.matmul_zero_apply _ ⟨rfl, rfl, rfl, rfl, rfl, rfl⟩ none (truncf .bf16 w bitsLt_bf16_f32) v r d

/-- The attention kernel's body at row r and lane d. -/
theorem pay_attn (x0 : Vec Ideal S1x1024x64 .bf16) (x1 x2 : Vec Ideal S1x2048x64 .bf16) (r : Fin 1024) (d : Fin 64) :
    k1_pay1 x0 x1 x2 (ix3 (0 : Fin 1) r d)
      = ∑ j : Fin 2048,
          Cert.Mha.softmaxRow
              (fun j' : Fin 2048 =>
                (∑ d' : Fin 64, x0 (ix3 (0 : Fin 1) r d') * x1 (ix3 (0 : Fin 1) j' d')) * ((1 / 32 : ℝ) : EReal)) j
            * x2 (ix3 (0 : Fin 1) j d) := by
  rw [k1_pay1_eq]
  refine (shapeCast_ab_1ab_apply _ shapeCasts_S1024x64_S1x1024x64 (0 : Fin 1) r d).trans ?_
  refine (applyWeights_apply _ _ r d).trans ?_
  refine Finset.sum_congr rfl fun j _ => ?_
  refine congrArg₂ (· * ·) ?_ ?_
  · refine (weights_apply _ r j).trans ?_
    refine congrArg (fun f => Cert.Mha.softmaxRow f j) (funext fun j' => ?_)
    refine (logits_apply _ _ r j').trans ?_
    refine congrArg (· * ((1 / 32 : ℝ) : EReal)) (Finset.sum_congr rfl fun d' _ => ?_)
    refine congrArg₂ (· * ·) ?_ ?_
    · exact shapeCast_1ab_ab_apply x0 shapeCasts_S1x1024x64_S1024x64 r d'
    · refine (transpose_ix2_apply _ transposes_S2048x64_p1_0_S64x2048 d' j').trans ?_
      exact shapeCast_1ab_ab_apply x1 shapeCasts_S1x2048x64_S2048x64 j' d'
  · exact shapeCast_1ab_ab_apply x2 shapeCasts_S1x2048x64_S2048x64 j d

end Cert.KernelIdeal.Pay

end
-- ==== Proof.Arr1.lean ====
/-
  From the attention region's blocks to its output array.

  The region runs on a 32 × 2 grid. At point (g, i) the query window holds rows 1024 i … 1024 i + 1023 of matrix g of
  the query array, the key and value windows hold all of matrix g of theirs, and the output window is written back to
  rows 1024 i … 1024 i + 1023 of matrix g of the output array. So what a point writes back is its block of one function
  of the three whole arrays, the softmax-weighted average of the value rows, and the 64 blocks tile the output array.
-/
import proofs.«181749_j403726926150_2_alg».proof.Proof.Body1
import proofs.«181749_j403726926150_2_alg».proof.Proof.Pay1
import proofs.«181749_j403726926150_2_alg».proof.Proof.KSpec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem zero3 : (![0, 0, 0] : Fin 3 → Nat) = fun _ => 0 := funext fun a => by fin_cases a <;> rfl

/-- The index maps over the grid: the query window's block is the output window's; the key and value windows' blocks
    are the whole matrix the output block lies in; the output's matrix index is below 32, its row-block index below 2. -/
theorem index_facts1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 1 ∧ win1_3.index t (2 : Fin 3) = 0 :=
  (by decide +kernel : ∀ t : Fin grid1.N, _)

/-- Every output block is some point's. -/
theorem index_onto1 : ∀ (g : Fin 32) (i : Fin 2), ∃ t : Fin cfg1.N, win1_3.index t = ![g.val, i.val, 0] :=
  (by decide +kernel : ∀ (g : Fin 32) (i : Fin 2), ∃ t : Fin grid1.N, win1_3.index t = ![g.val, i.val, 0])

/-- The query window's block at a point, read at an entry: the query array at the block's offset plus the entry. -/
theorem iblk1_0_apply (c : Dev nD) (t : Fin cfg1.N) (x : S1x1024x64.Idx) (k : S32x2048x64.Idx)
    (h0 : (k 0).val = win1_0.index t (0 : Fin 3) * 1 + 1 * (x 0).val)
    (h1 : (k 1).val = win1_0.index t (1 : Fin 3) * 1024 + 1 * (x 1).val)
    (h2 : (k 2).val = win1_0.index t (2 : Fin 3) * 64 + 1 * (x 2).val) :
    (iblk1 V c 0 t : Vec Ideal S1x1024x64 .bf16) x = (V c main_v8 : S32x2048x64.Idx → EReal) k := by
  unfold iblk1
  rw [View.read_apply]
  show (V c main_v8 : S32x2048x64.Idx → EReal) _ = _
  congr 1
  funext a; apply Fin.ext
  match a with
  | ⟨0, _⟩ => exact h0.symm
  | ⟨1, _⟩ => exact h1.symm
  | ⟨2, _⟩ => exact h2.symm

/-- The key window's block at a point, read at an entry. -/
theorem iblk1_1_apply (c : Dev nD) (t : Fin cfg1.N) (x : S1x2048x64.Idx) (k : S32x2048x64.Idx)
    (h0 : (k 0).val = win1_1.index t (0 : Fin 3) * 1 + 1 * (x 0).val)
    (h1 : (k 1).val = win1_1.index t (1 : Fin 3) * 2048 + 1 * (x 1).val)
    (h2 : (k 2).val = win1_1.index t (2 : Fin 3) * 64 + 1 * (x 2).val) :
    (iblk1 V c 1 t : Vec Ideal S1x2048x64 .bf16) x = (V c main_v9 : S32x2048x64.Idx → EReal) k := by
  unfold iblk1
  rw [View.read_apply]
  show (V c main_v9 : S32x2048x64.Idx → EReal) _ = _
  congr 1
  funext a; apply Fin.ext
  match a with
  | ⟨0, _⟩ => exact h0.symm
  | ⟨1, _⟩ => exact h1.symm
  | ⟨2, _⟩ => exact h2.symm

/-- The value window's block at a point, read at an entry. -/
theorem iblk1_2_apply (c : Dev nD) (t : Fin cfg1.N) (x : S1x2048x64.Idx) (k : S32x2048x64.Idx)
    (h0 : (k 0).val = win1_2.index t (0 : Fin 3) * 1 + 1 * (x 0).val)
    (h1 : (k 1).val = win1_2.index t (1 : Fin 3) * 2048 + 1 * (x 1).val)
    (h2 : (k 2).val = win1_2.index t (2 : Fin 3) * 64 + 1 * (x 2).val) :
    (iblk1 V c 2 t : Vec Ideal S1x2048x64 .bf16) x = (V c main_v10 : S32x2048x64.Idx → EReal) k := by
  unfold iblk1
  rw [View.read_apply]
  show (V c main_v10 : S32x2048x64.Idx → EReal) _ = _
  congr 1
  funext a; apply Fin.ext
  match a with
  | ⟨0, _⟩ => exact h0.symm
  | ⟨1, _⟩ => exact h1.symm
  | ⟨2, _⟩ => exact h2.symm

/-- The body's value at row r and lane d, when the three blocks are matrix g of the three arrays, the query block from
    row n - r on: the attention output at (g, n, d). -/
theorem body_at (x0 : Vec Ideal S1x1024x64 .bf16) (x1 x2 : Vec Ideal S1x2048x64 .bf16) (q k v : S32x2048x64.Idx → EReal)
    (r : Fin 1024) (d : Fin 64) (g : Fin 32) (n : Fin 2048)
    (hq : ∀ d' : Fin 64, x0 (ix3 (0 : Fin 1) r d') = q (ix3 g n d'))
    (hk : ∀ (j : Fin 2048) (d' : Fin 64), x1 (ix3 (0 : Fin 1) j d') = k (ix3 g j d'))
    (hv : ∀ (j : Fin 2048) (d' : Fin 64), x2 (ix3 (0 : Fin 1) j d') = v (ix3 g j d')) :
    k1_pay1 x0 x1 x2 (ix3 (0 : Fin 1) r d) = attnArr q k v (ix3 g n d) := by
  rw [pay_attn, attnArr_apply]
  unfold attnAt
  refine Finset.sum_congr rfl fun j _ => ?_
  rw [hv j d]
  refine congrArg (· * v (ix3 g j d)) ?_
  refine congrArg (fun f => Cert.Mha.softmaxRow f j) (funext fun j' => ?_)
  refine congrArg (· * ((1 / 32 : ℝ) : EReal)) (Finset.sum_congr rfl fun d' _ => ?_)
  rw [hq d', hk j' d']

/-- What a point's body leaves in the output window, entry by entry: the attention output at the array index the
    output block puts the entry at. -/
theorem block_at (c : Dev nD) (t : Fin cfg1.N) (j : S1x1024x64.Idx) :
    k1_pay1 (iblk1 V c 0 t) (iblk1 V c 1 t) (iblk1 V c 2 t) j
      = attnArr (V c main_v8) (V c main_v9) (V c main_v10) (((cfg1.win 3).blk t).view.emb j) := by
  obtain ⟨e00, e01, e02, e10, e11, e12, e20, e21, e22, b0, b1, b2⟩ := index_facts1 t
  obtain ⟨u, r, d, rfl⟩ : ∃ (u : Fin 1) (r : Fin 1024) (d : Fin 64), j = ix3 u r d := ⟨j 0, j 1, j 2, eq_ix3 j⟩
  obtain rfl : u = 0 := Subsingleton.elim _ _
  have hr : r.val < 1024 := r.isLt
  have hg : win1_3.index t (0 : Fin 3) < 32 := by omega
  have hn : win1_3.index t (1 : Fin 3) * 1024 + r.val < 2048 := by omega
  have hemb : ((cfg1.win 3).blk t).view.emb (ix3 (0 : Fin 1) r d)
      = ix3 (⟨win1_3.index t (0 : Fin 3), hg⟩ : Fin 32) (⟨win1_3.index t (1 : Fin 3) * 1024 + r.val, hn⟩ : Fin 2048) d := by
    funext a; apply Fin.ext
    match a with
    | ⟨0, _⟩ => show win1_3.index t (0 : Fin 3) * 1 + 1 * 0 = win1_3.index t (0 : Fin 3); omega
    | ⟨1, _⟩ => show win1_3.index t (1 : Fin 3) * 1024 + 1 * r.val = win1_3.index t (1 : Fin 3) * 1024 + r.val; omega
    | ⟨2, _⟩ => show win1_3.index t (2 : Fin 3) * 64 + 1 * d.val = d.val; omega
  rw [hemb]
  refine body_at _ _ _ _ _ _ r d _ _ (fun d' => ?_) (fun j' d' => ?_) (fun j' d' => ?_)
  · refine iblk1_0_apply V c t _ _ ?_ ?_ ?_
    · show win1_3.index t (0 : Fin 3) = win1_0.index t (0 : Fin 3) * 1 + 1 * 0; omega
    · show win1_3.index t (1 : Fin 3) * 1024 + r.val = win1_0.index t (1 : Fin 3) * 1024 + 1 * r.val; omega
    · show d'.val = win1_0.index t (2 : Fin 3) * 64 + 1 * d'.val; omega
  · refine iblk1_1_apply V c t _ _ ?_ ?_ ?_
    · show win1_3.index t (0 : Fin 3) = win1_1.index t (0 : Fin 3) * 1 + 1 * 0; omega
    · show j'.val = win1_1.index t (1 : Fin 3) * 2048 + 1 * j'.val; omega
    · show d'.val = win1_1.index t (2 : Fin 3) * 64 + 1 * d'.val; omega
  · refine iblk1_2_apply V c t _ _ ?_ ?_ ?_
    · show win1_3.index t (0 : Fin 3) = win1_2.index t (0 : Fin 3) * 1 + 1 * 0; omega
    · show j'.val = win1_2.index t (1 : Fin 3) * 2048 + 1 * j'.val; omega
    · show d'.val = win1_2.index t (2 : Fin 3) * 64 + 1 * d'.val; omega

/-- What a point writes back is its block of the attention output of the three arrays as the region finds them. -/
theorem flushed1_eq (c : Dev nD) (t : Fin cfg1.N) :
    (dat1 (F := Ideal) V c).flushed 3 t
      = ((cfg1.win 3).blk t).view.read (Elt Ideal) (attnArr (V c main_v8) (V c main_v9) (V c main_v10)) := by
  show (cfg1.win 3).cut (grid1.coords t) ((dat1 (F := Ideal) V c).after 3 t) = _
  rw [after1_3]
  unfold out1_3
  rw [View.canon_unit_zero zero3]
  simp only [View.ld_unit_zero (S := S1x1024x64) zero3, View.ld_unit_zero (S := S1x2048x64) zero3]
  funext j
  exact block_at V c t j

/-- An index of the output array is in a point's block iff each coordinate is in the block's range on its axis. -/
theorem mem_blk1 (t : Fin cfg1.N) (i : S32x2048x64.Idx) :
    i ∈ ((cfg1.win 3).blk t).view.set
      ↔ ∀ a : Fin 3, win1_3.index t a * S1x1024x64.size a ≤ (i a).val
          ∧ (i a).val < win1_3.index t a * S1x1024x64.size a + S1x1024x64.size a := by
  show i ∈ ((View.whole main_v11).slice (win1_3.rect t)).set ↔ _
  rw [View.set_slice_whole, Rect.mem_set_unit]
  exact Iff.rfl

/-- Every index of the output array is in the block of the point its matrix and its row block name. -/
theorem cover1 (i : S32x2048x64.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  obtain ⟨t, ht⟩ := index_onto1 ⟨(i 0).val, h0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk1]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 64 ≤ (i 2).val ∧ (i 2).val < win1_3.index t (2 : Fin 3) * 64 + 64
    omega

/-- The output array after the region: the attention output of the three arrays as the region finds them. -/
theorem arr1 (c : Dev nD) :
    (dat1 (F := Ideal) V c).arrAt 3 cfg1.N = attnArr (V c main_v8) (V c main_v9) (V c main_v10) :=
  (dat1 (F := Ideal) V c).arrAt_eq_of_cover 3 (attnArr (V c main_v8) (V c main_v9) (V c main_v10))
    (fun t _ => flushed1_eq V c t) cover1

end Cert.KernelIdeal.Val

end
-- ==== Proof.Pay2.lean ====
/-
  The output projection kernel's body read at an entry, over the extended reals.

  The body takes a [1, 16, 512, 64] block of head outputs, lays the sixteen heads side by side as a [512, 1024] matrix
  (row r, feature e is head e / 64, lane e % 64 of row r), multiplies by a [1024, 1024] matrix and adds a bias row. Over
  the extended reals the narrowing format changes are the identity and the matrix unit's product into a zero accumulator
  is the plain sum over the contracted feature, so entry (0, r, f) of what the body stores is
  (∑ e, block (0, e / 64, r, e % 64) * W (e, f)) + bias (0, f).
-/
import proofs.«181749_j403726926150_2_alg».proof.Proof.Gen.KernelIdeal.Skeleton
import proofs.«181749_j403726926150_2_alg».proof.Proof.Spec
import proofs.«181749_j403726926150_2_alg».proof.Proof.LibDotApply
import Idealize.ShloMosaic.Lib.ValueLayout

noncomputable section

namespace Cert.KernelIdeal.Pay

open Idealize.ShloMosaic Idealize.ShloMosaic.ValueIdx Cert.KernelIdeal.Gen

/-- A [b, 16, 64] array flattened to [b, 1024] reads, at (r, e), the operand at (r, e / 64, e % 64): the two row-major
positions are (r * 16 + e / 64) * 64 + e % 64 and r * 1024 + e. -/
theorem shapeCast_merge_apply {α : Type} {b : ℕ} (x : (⟨3, ![b, 16, 64]⟩ : Shape).Idx → α)
    (h : (⟨3, ![b, 16, 64]⟩ : Shape).ShapeCasts ⟨2, ![b, 1024]⟩) (r : Fin b) (e : Fin 1024) :
    shapeCast ⟨2, ![b, 1024]⟩ x h (ix2 r e) = x (ix3 r (Cert.Mha.headOf e) (Cert.Mha.laneOf e)) :=
  shapeCast_apply x h _ _ (by
    rw [Shape.rowMajor_val_three, Shape.rowMajor_val_two]
    show (r.val * 16 + e.val / 64) * 64 + e.val % 64 = r.val * 1024 + e.val
    omega)

/-- A rank-3 array with its first two axes swapped (permutation [1, 0, 2]) reads, at (j, i, k), the operand at
(i, j, k). -/
theorem transpose_ix3_102_apply {α : Type} {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- The output projection's body at entry (0, r, f). -/
theorem pay_o (x0 : Vec Ideal S1x16x512x64 .bf16) (x1 : Vec Ideal S1024x1024 .bf16) (x2 : Vec Ideal S1x1024 .f32)
    (r : Fin 512) (f : Fin 1024) :
    k2_pay1 x0 x1 x2 (ix3 (0 : Fin 1) r f)
      = (∑ e : Fin 1024, x0 (ix4 (0 : Fin 1) (Cert.Mha.headOf e) r (Cert.Mha.laneOf e)) * x1 (ix2 e f))
        + x2 (ix2 (0 : Fin 1) f) := by
  unfold k2_pay1
  refine (shapeCast_ab_1ab_apply _ _ _ _ _).trans ?_
  rw [addf_apply]
  refine congrArg₂ (· + ·) ?_ ?_
  · refine (Cert.LibDotApply.matmul_zero_apply _ ⟨rfl, rfl, rfl, rfl, rfl, rfl⟩ none _ _ _ _).trans ?_
    refine Finset.sum_congr rfl fun e _ => ?_
    rw [shapeCast_self]
    refine congrArg (· * _) ?_
    refine (shapeCast_merge_apply _ _ _ _).trans ?_
    refine (transpose_ix3_102_apply _ _ _ _ _).trans ?_
    exact shapeCast_1abc_abc_apply _ _ _ _ _
  · refine (broadcastTo_1b_ab_apply _ _ _ _).trans ?_
    rw [shapeCast_self]

end Cert.KernelIdeal.Pay

end
-- ==== Proof.Arr2.lean ====
/-
  What the output projection region leaves in its output array, as one function of the arrays it reads.

  The region runs over a grid of 2 × 4 points (b, i). At point (b, i) it reads the [1, 16, 512, 64] block of the head
  outputs at block index (b, 0, i, 0), the whole weight matrix and the whole bias row, and writes the [1, 512, 1024]
  block of the result at block index (b, i, 0). The body's arithmetic at an entry of its block is the sum over the 1024
  features of head output times weight, plus bias; an entry (0, h, r, d) of the input block is entry (b, h, 512 i + r, d)
  of the head outputs and an entry (0, r, f) of the output block is entry (b, 512 i + r, f) of the result, so each
  point writes the block of one whole-array function, and the eight blocks cover the result array.
-/
import proofs.«181749_j403726926150_2_alg».proof.Proof.Body2
import proofs.«181749_j403726926150_2_alg».proof.Proof.Pay2
import proofs.«181749_j403726926150_2_alg».proof.Proof.KSpec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The block indices at a grid point: the head outputs' block moves with the result's block on the batch axis and on
the row axis and sits at 0 on the head and lane axes; the weight and the bias are whole; the result's block sits at 0
on the feature axis, and its batch and row indices stay below 2 and 4. -/
theorem outIdx_facts : ∀ t : Fin cfg2.N,
    win2_0.index t (0 : Fin 4) = win2_3.index t (0 : Fin 3)
    ∧ win2_0.index t (1 : Fin 4) = 0
    ∧ win2_0.index t (2 : Fin 4) = win2_3.index t (1 : Fin 3)
    ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (2 : Fin 3) = 0
    ∧ win2_3.index t (0 : Fin 3) ≤ 1 ∧ win2_3.index t (1 : Fin 3) ≤ 3 :=
  (by decide +kernel : ∀ t : Fin grid2.N, _)

/-- Every block index of the result is some point's. -/
theorem outIdx_onto : ∀ (q0 : Fin 2) (q1 : Fin 4), ∃ t : Fin cfg2.N, win2_3.index t = ![q0.val, q1.val, 0] :=
  (by decide +kernel : ∀ (q0 : Fin 2) (q1 : Fin 4), ∃ t : Fin grid2.N, win2_3.index t = ![q0.val, q1.val, 0])

/-- The head outputs' block at point t: its entry (0, h, r, d) is entry (b, h, n, d) of the array, b the result
block's batch index and n = 512 × the result block's row index + r. -/
theorem iblk2_0_apply (c : Dev nD) (t : Fin cfg2.N) (h : Fin 16) (r : Fin 512) (d : Fin 64) (b : Fin 2) (n : Fin 2048)
    (hb : b.val = win2_3.index t (0 : Fin 3)) (hn : n.val = win2_3.index t (1 : Fin 3) * 512 + r.val) :
    (iblk2 V c 0 t : Vec Ideal S1x16x512x64 .bf16) (ix4 (0 : Fin 1) h r d)
      = (V c main_v12 : S2x16x2048x64.Idx → EReal) (ix4 b h n d) := by
  obtain ⟨e0, e1, e2, e3, -⟩ := outIdx_facts t
  unfold iblk2
  rw [View.read_apply]
  show V c main_v12 _ = V c main_v12 _
  congr 1
  funext a
  apply Fin.ext
  match a with
  | ⟨0, _⟩ => show win2_0.index t (0 : Fin 4) * 1 + 1 * (0 : Fin 1).val = b.val; rw [e0, hb]; simp
  | ⟨1, _⟩ => show win2_0.index t (1 : Fin 4) * 16 + 1 * h.val = h.val; rw [e1]; omega
  | ⟨2, _⟩ => show win2_0.index t (2 : Fin 4) * 512 + 1 * r.val = n.val; rw [e2, hn]; omega
  | ⟨3, _⟩ => show win2_0.index t (3 : Fin 4) * 64 + 1 * d.val = d.val; rw [e3]; omega

/-- The weight's block at any point is the whole weight. -/
theorem iblk2_1_apply (c : Dev nD) (t : Fin cfg2.N) (e f : Fin 1024) :
    (iblk2 V c 1 t : Vec Ideal S1024x1024 .bf16) (ix2 e f) = (V c main_v14 : S1024x1024.Idx → EReal) (ix2 e f) := by
  obtain ⟨-, -, -, -, e4, e5, -⟩ := outIdx_facts t
  unfold iblk2
  rw [View.read_apply]
  show V c main_v14 _ = V c main_v14 _
  congr 1
  funext a
  apply Fin.ext
  match a with
  | ⟨0, _⟩ => show win2_1.index t (0 : Fin 2) * 1024 + 1 * e.val = e.val; rw [e4]; omega
  | ⟨1, _⟩ => show win2_1.index t (1 : Fin 2) * 1024 + 1 * f.val = f.val; rw [e5]; omega

/-- The bias row's block at any point is the whole row. -/
theorem iblk2_2_apply (c : Dev nD) (t : Fin cfg2.N) (f : Fin 1024) :
    (iblk2 V c 2 t : Vec Ideal S1x1024 .f32) (ix2 (0 : Fin 1) f) = (V c main_v15 : S1x1024.Idx → EReal) (ix2 (0 : Fin 1) f) := by
  obtain ⟨-, -, -, -, -, -, e6, e7, -⟩ := outIdx_facts t
  unfold iblk2
  rw [View.read_apply]
  show V c main_v15 _ = V c main_v15 _
  congr 1
  funext a
  apply Fin.ext
  match a with
  | ⟨0, _⟩ => show win2_2.index t (0 : Fin 2) * 1 + 1 * (0 : Fin 1).val = (0 : Fin 1).val; rw [e6]; rfl
  | ⟨1, _⟩ => show win2_2.index t (1 : Fin 2) * 1024 + 1 * f.val = f.val; rw [e7]; omega

/-- The body's arithmetic at entry (0, r, f) of point t's block is the whole-array function at (b, n, f), b the result
block's batch index and n = 512 × its row index + r. -/
theorem out_point (c : Dev nD) (t : Fin cfg2.N) (r : Fin 512) (f : Fin 1024) (b : Fin 2) (n : Fin 2048)
    (hb : b.val = win2_3.index t (0 : Fin 3)) (hn : n.val = win2_3.index t (1 : Fin 3) * 512 + r.val) :
    k2_pay1 (iblk2 V c 0 t) (iblk2 V c 1 t) (iblk2 V c 2 t) (ix3 (0 : Fin 1) r f)
      = outAt (V c main_v12) (V c main_v14) (V c main_v15) b n f := by
  refine (pay_o _ _ _ r f).trans ?_
  unfold outAt
  refine congrArg₂ (· + ·) (Finset.sum_congr rfl fun e _ => congrArg₂ (· * ·) ?_ ?_) ?_
  · exact iblk2_0_apply V c t _ r _ b n hb hn
  · exact iblk2_1_apply V c t e f
  · exact iblk2_2_apply V c t f

/-- At every entry of point t's block the body's arithmetic is the whole-array function read through the block. -/
theorem flushed_point (c : Dev nD) (t : Fin cfg2.N) (j : S1x512x1024.Idx) :
    k2_pay1 (iblk2 V c 0 t) (iblk2 V c 1 t) (iblk2 V c 2 t) j
      = ((cfg2.win 3).blk t).view.read (Elt Ideal) (outArr (V c main_v12) (V c main_v14) (V c main_v15)) j := by
  obtain ⟨a, r, f, rfl⟩ : ∃ (a : Fin 1) (r : Fin 512) (f : Fin 1024), j = ix3 a r f := ⟨j 0, j 1, j 2, eq_ix3 j⟩
  obtain rfl : a = 0 := Subsingleton.elim _ _
  obtain ⟨-, -, -, -, -, -, -, -, e8, l0, l1⟩ := outIdx_facts t
  have hr : r.val < 512 := r.isLt
  rw [View.read_apply]
  have hemb : (((cfg2.win 3).blk t).view.emb (ix3 (0 : Fin 1) r f) : S2x2048x1024.Idx)
      = ix3 (⟨win2_3.index t (0 : Fin 3), by omega⟩ : Fin 2) (⟨win2_3.index t (1 : Fin 3) * 512 + r.val, by omega⟩ : Fin 2048) f := by
    funext a
    apply Fin.ext
    match a with
    | ⟨0, _⟩ => show win2_3.index t (0 : Fin 3) * 1 + 1 * (0 : Fin 1).val = win2_3.index t (0 : Fin 3); simp
    | ⟨1, _⟩ => show win2_3.index t (1 : Fin 3) * 512 + 1 * r.val = win2_3.index t (1 : Fin 3) * 512 + r.val; omega
    | ⟨2, _⟩ => show win2_3.index t (2 : Fin 3) * 1024 + 1 * f.val = f.val; rw [e8]; omega
  show _ = outArr (V c main_v12) (V c main_v14) (V c main_v15) (((cfg2.win 3).blk t).view.emb (ix3 (0 : Fin 1) r f))
  rw [hemb, outArr_apply]
  exact out_point V c t r f _ _ rfl rfl

/-- What point t writes back is block t of the whole-array function of the arrays as the region finds them. -/
theorem flushed2_eq (c : Dev nD) (t : Fin cfg2.N) :
    (dat2 (F := Ideal) V c).flushed 3 t
      = ((cfg2.win 3).blk t).view.read (Elt Ideal) (outArr (V c main_v12) (V c main_v14) (V c main_v15)) := by
  show (cfg2.win 3).cut (grid2.coords t) ((dat2 V c).after 3 t) = _
  rw [after2_3]
  unfold out2_3
  rw [View.canon_unit_zero zeros3]
  simp only [View.ld_unit_zero (S := S1x16x512x64) zeros4, View.ld_unit_zero (S := S1024x1024) zeros2,
    View.ld_unit_zero (S := S1x1024) zeros2]
  funext j
  exact flushed_point V c t j

/-- An index of the result array is in point t's block iff each coordinate is in the block's range on its axis. -/
theorem mem_outBlk (t : Fin cfg2.N) (i : S2x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v16).slice (win2_3.rect t)).set ↔ _
  rw [View.set_slice_whole, Rect.mem_set_unit]
  exact Iff.rfl

/-- Every index (b, n, f) of the result array lies in the block of the point whose block index is (b, n / 512, 0). -/
theorem out_cover (i : S2x2048x1024.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 1024 := (i 2).isLt
  obtain ⟨t, ht⟩ := outIdx_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_outBlk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- The result array after the region: the output projection of the head outputs, the weight and the bias row as the
region finds them. -/
theorem arr2 (c : Dev nD) :
    (dat2 (F := Ideal) V c).arrAt 3 cfg2.N = outArr (V c main_v12) (V c main_v14) (V c main_v15) :=
  (dat2 (F := Ideal) V c).arrAt_eq_of_cover 3 (outArr (V c main_v12) (V c main_v14) (V c main_v15))
    (fun t _ => flushed2_eq V c t) out_cover

end Cert.KernelIdeal.Val

end
-- ==== Proof.HostReads.lean ====
/-
  The host operations between the kernel regions, read at an entry.

  Before the first region the three weight matrices are transposed and laid side by side into one [1024, 3072] matrix
  (column 1024 s + f of it is row f of weight s) and the three biases end to end into one [1, 3072] row; between the
  regions the [2, 16, 2048, 64] arrays are read as [32, 2048, 64] with batch and head merged (g = 16 b + h) and back;
  before the last region the output weight is transposed and its bias read as a row. A change of float format is the
  identity over the extended reals.
-/
import proofs.«181749_j403726926150_2_alg».proof.Proof.Gen.KernelIdeal.Launch
import proofs.«181749_j403726926150_2_alg».proof.Proof.KSpec
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.Mha
open Idealize.ShloMosaic Idealize.ShloMosaic.TcCoe Idealize.ShloMosaic.StableHlo Idealize.ShloMosaic.ValueIdx Idealize.SL.Sem

/-- An operation over a literal family of three references: its result with each operand's contents at its own
    reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-! ## Three pieces side by side -/

/-- Three [1024, 1024] matrices laid side by side along axis 1: column 1024 s + f of the result is column f of piece s. -/
theorem concat3_cols (A B C : S1024x1024.Idx → EReal)
    (h : Shape.Concatenates [S1024x1024, S1024x1024, S1024x1024] S1024x3072 (1 : Fin S1024x3072.rank)) (e f : Fin 1024) :
    concatenate S1024x3072 1 [⟨S1024x1024, A⟩, ⟨S1024x1024, B⟩, ⟨S1024x1024, C⟩] h (ix2 e (col 0 f)) = A (ix2 e f)
    ∧ concatenate S1024x3072 1 [⟨S1024x1024, A⟩, ⟨S1024x1024, B⟩, ⟨S1024x1024, C⟩] h (ix2 e (col 1 f)) = B (ix2 e f)
    ∧ concatenate S1024x3072 1 [⟨S1024x1024, A⟩, ⟨S1024x1024, B⟩, ⟨S1024x1024, C⟩] h (ix2 e (col 2 f)) = C (ix2 e f) := by
  refine ⟨?_, ?_, ?_⟩
  · refine concatenate_apply_piece (1 : Fin S1024x3072.rank) [⟨S1024x1024, A⟩, ⟨S1024x1024, B⟩, ⟨S1024x1024, C⟩] h (ix2 e (col 0 f)) 0 (by simp) S1024x1024 A rfl rfl 0 rfl (ix2 e f) ?_ ?_
    · intro b hb; match b with
      | ⟨0, _⟩ => rfl
      | ⟨1, _⟩ => exact absurd rfl hb
    · show 0 + f.val = (col 0 f).val; rw [col_val]; simp
  · refine concatenate_apply_piece (1 : Fin S1024x3072.rank) [⟨S1024x1024, A⟩, ⟨S1024x1024, B⟩, ⟨S1024x1024, C⟩] h (ix2 e (col 1 f)) 1 (by simp) S1024x1024 B rfl rfl 1024 rfl (ix2 e f) ?_ ?_
    · intro b hb; match b with
      | ⟨0, _⟩ => rfl
      | ⟨1, _⟩ => exact absurd rfl hb
    · show 1024 + f.val = (col 1 f).val; rw [col_val]; simp
  · refine concatenate_apply_piece (1 : Fin S1024x3072.rank) [⟨S1024x1024, A⟩, ⟨S1024x1024, B⟩, ⟨S1024x1024, C⟩] h (ix2 e (col 2 f)) 2 (by simp) S1024x1024 C rfl rfl 2048 rfl (ix2 e f) ?_ ?_
    · intro b hb; match b with
      | ⟨0, _⟩ => rfl
      | ⟨1, _⟩ => exact absurd rfl hb
    · show 2048 + f.val = (col 2 f).val; rw [col_val]; simp

/-- Three [1024] vectors laid end to end: entry 1024 s + f of the result is entry f of piece s. -/
theorem concat3_vec (A B C : S1024.Idx → EReal)
    (h : Shape.Concatenates [S1024, S1024, S1024] S3072 (0 : Fin S3072.rank)) (f : Fin 1024) :
    concatenate S3072 0 [⟨S1024, A⟩, ⟨S1024, B⟩, ⟨S1024, C⟩] h (ix1 (col 0 f)) = A (ix1 f)
    ∧ concatenate S3072 0 [⟨S1024, A⟩, ⟨S1024, B⟩, ⟨S1024, C⟩] h (ix1 (col 1 f)) = B (ix1 f)
    ∧ concatenate S3072 0 [⟨S1024, A⟩, ⟨S1024, B⟩, ⟨S1024, C⟩] h (ix1 (col 2 f)) = C (ix1 f) := by
  refine ⟨?_, ?_, ?_⟩
  · refine concatenate_apply_piece (0 : Fin S3072.rank) [⟨S1024, A⟩, ⟨S1024, B⟩, ⟨S1024, C⟩] h (ix1 (col 0 f)) 0 (by simp) S1024 A rfl rfl 0 rfl (ix1 f) ?_ ?_
    · intro b hb; match b with
      | ⟨0, _⟩ => exact absurd rfl hb
    · show 0 + f.val = (col 0 f).val; rw [col_val]; simp
  · refine concatenate_apply_piece (0 : Fin S3072.rank) [⟨S1024, A⟩, ⟨S1024, B⟩, ⟨S1024, C⟩] h (ix1 (col 1 f)) 1 (by simp) S1024 B rfl rfl 1024 rfl (ix1 f) ?_ ?_
    · intro b hb; match b with
      | ⟨0, _⟩ => exact absurd rfl hb
    · show 1024 + f.val = (col 1 f).val; rw [col_val]; simp
  · refine concatenate_apply_piece (0 : Fin S3072.rank) [⟨S1024, A⟩, ⟨S1024, B⟩, ⟨S1024, C⟩] h (ix1 (col 2 f)) 2 (by simp) S1024 C rfl rfl 2048 rfl (ix1 f) ?_ ?_
    · intro b hb; match b with
      | ⟨0, _⟩ => exact absurd rfl hb
    · show 2048 + f.val = (col 2 f).val; rw [col_val]; simp

/-- A transposed [1024, 1024] matrix at (e, f) is the matrix at (f, e). -/
theorem transpose_sq_apply (A : S1024x1024.Idx → EReal) (h : S1024x1024.Transposes [1, 0] S1024x1024) (e f : Fin 1024) :
    transpose S1024x1024 [1, 0] A h (ix2 e f) = A (ix2 f e) :=
  transpose_apply [1, 0] A h (ix2 e f) (ix2 f e) (fun b => match b with
    | ⟨0, _⟩ => rfl
    | ⟨1, _⟩ => rfl)

/-- A [3072] vector read as a [1, 3072] row. -/
theorem row3072_apply (v : S3072.Idx → EReal) (h : S3072.ShapeCasts S1x3072) (c : Fin 3072) :
    shapeCast S1x3072 v h (ix2 (0 : Fin 1) c) = v (ix1 c) :=
  shapeCast_apply v h _ _ (by rw [Shape.rowMajor_val_one, Shape.rowMajor_val_two]; show c.val = 0 * 3072 + c.val; omega)

/-- A [1024] vector read as a [1, 1024] row. -/
theorem row1024_apply (v : S1024.Idx → EReal) (h : S1024.ShapeCasts S1x1024) (c : Fin 1024) :
    shapeCast S1x1024 v h (ix2 (0 : Fin 1) c) = v (ix1 c) :=
  shapeCast_apply v h _ _ (by rw [Shape.rowMajor_val_one, Shape.rowMajor_val_two]; show c.val = 0 * 1024 + c.val; omega)

/-- Batch and head merged into one axis: entry (16 b + h, n, d) of the [32, 2048, 64] reading is entry (b, h, n, d). -/
theorem merged_apply (a : S2x16x2048x64.Idx → EReal) (h : S2x16x2048x64.ShapeCasts S32x2048x64)
    (b : Fin 2) (hh : Fin 16) (n : Fin 2048) (d : Fin 64) (g : Fin 32) (hg : g.val = b.val * 16 + hh.val) :
    shapeCast S32x2048x64 a h (ix3 g n d) = a (ix4 b hh n d) :=
  shapeCast_apply a h _ _ (by
    rw [Shape.rowMajor_val_four, Shape.rowMajor_val_three]
    show ((b.val * 16 + hh.val) * 2048 + n.val) * 64 + d.val = (g.val * 2048 + n.val) * 64 + d.val
    rw [hg])

/-- The merged axis split back: entry (b, h, n, d) of the [2, 16, 2048, 64] reading is entry (16 b + h, n, d). -/
theorem split_apply (a : S32x2048x64.Idx → EReal) (h : S32x2048x64.ShapeCasts S2x16x2048x64)
    (b : Fin 2) (hh : Fin 16) (n : Fin 2048) (d : Fin 64) (g : Fin 32) (hg : g.val = b.val * 16 + hh.val) :
    shapeCast S2x16x2048x64 a h (ix4 b hh n d) = a (ix3 g n d) :=
  shapeCast_apply a h _ _ (by
    rw [Shape.rowMajor_val_four, Shape.rowMajor_val_three]
    show (g.val * 2048 + n.val) * 64 + d.val = ((b.val * 16 + hh.val) * 2048 + n.val) * 64 + d.val
    rw [hg])

variable (W : Valuation τ sig (Elt Ideal))

/-! ## The first stretch -/

/-- Column 1024 s + f, row e of the fused weight is entry (f, e) of weight s: queries, keys, values. -/
theorem v4_apply (e f : Fin 1024) :
    (StableHlo.after (hostOps0 (F := Ideal)) W (Proc.devRef .tc main_v4) : S1024x3072.Idx → EReal) (ix2 e (col 0 f))
        = (W (Proc.devRef .tc main_arg1) : S1024x1024.Idx → EReal) (ix2 f e)
    ∧ (StableHlo.after (hostOps0 (F := Ideal)) W (Proc.devRef .tc main_v4) : S1024x3072.Idx → EReal) (ix2 e (col 1 f))
        = (W (Proc.devRef .tc main_arg3) : S1024x1024.Idx → EReal) (ix2 f e)
    ∧ (StableHlo.after (hostOps0 (F := Ideal)) W (Proc.devRef .tc main_v4) : S1024x3072.Idx → EReal) (ix2 e (col 2 f))
        = (W (Proc.devRef .tc main_arg5) : S1024x1024.Idx → EReal) (ix2 f e) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))
  obtain ⟨h0, h1, h2⟩ := concat3_cols
    (transpose S1024x1024 [1, 0] (W (Proc.devRef .tc main_arg1)) Gen.transposes_S1024x1024_S1024x1024_1_0)
    (transpose S1024x1024 [1, 0] (W (Proc.devRef .tc main_arg3)) Gen.transposes_S1024x1024_S1024x1024_1_0)
    (transpose S1024x1024 [1, 0] (W (Proc.devRef .tc main_arg5)) Gen.transposes_S1024x1024_S1024x1024_1_0)
    Gen.concatenates_S1024x1024_S1024x1024_S1024x1024_S1024x3072_d1 e f
  exact ⟨h0.trans (transpose_sq_apply _ _ e f), h1.trans (transpose_sq_apply _ _ e f), h2.trans (transpose_sq_apply _ _ e f)⟩

/-- Entry 1024 s + f of the fused bias row is entry f of bias s. -/
theorem v6_apply (f : Fin 1024) :
    (StableHlo.after (hostOps0 (F := Ideal)) W (Proc.devRef .tc main_v6) : S1x3072.Idx → EReal) (ix2 (0 : Fin 1) (col 0 f))
        = (W (Proc.devRef .tc main_arg2) : S1024.Idx → EReal) (ix1 f)
    ∧ (StableHlo.after (hostOps0 (F := Ideal)) W (Proc.devRef .tc main_v6) : S1x3072.Idx → EReal) (ix2 (0 : Fin 1) (col 1 f))
        = (W (Proc.devRef .tc main_arg4) : S1024.Idx → EReal) (ix1 f)
    ∧ (StableHlo.after (hostOps0 (F := Ideal)) W (Proc.devRef .tc main_v6) : S1x3072.Idx → EReal) (ix2 (0 : Fin 1) (col 2 f))
        = (W (Proc.devRef .tc main_arg6) : S1024.Idx → EReal) (ix1 f) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))
  obtain ⟨h0, h1, h2⟩ := concat3_vec (W (Proc.devRef .tc main_arg2)) (W (Proc.devRef .tc main_arg4)) (W (Proc.devRef .tc main_arg6))
    Gen.concatenates_S1024_S1024_S1024_S3072_d0 f
  exact ⟨(row3072_apply _ Gen.shapeCasts_S3072_S1x3072 _).trans h0, (row3072_apply _ Gen.shapeCasts_S3072_S1x3072 _).trans h1,
    (row3072_apply _ Gen.shapeCasts_S3072_S1x3072 _).trans h2⟩

/-- The first stretch writes no argument and no array of a later region: the activation is as it was. -/
theorem v_arg0_apply : StableHlo.after (hostOps0 (F := Ideal)) W (Proc.devRef .tc main_arg0) = W (Proc.devRef .tc main_arg0) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))

/-! ## The second stretch -/

/-- The three projections with batch and head merged. -/
theorem v8_apply (b : Fin 2) (hh : Fin 16) (n : Fin 2048) (d : Fin 64) (g : Fin 32) (hg : g.val = b.val * 16 + hh.val) :
    (StableHlo.after (hostOps1 (F := Ideal)) W (Proc.devRef .tc main_v8) : S32x2048x64.Idx → EReal) (ix3 g n d)
        = (W (Proc.devRef .tc main_v7_0) : S2x16x2048x64.Idx → EReal) (ix4 b hh n d)
    ∧ (StableHlo.after (hostOps1 (F := Ideal)) W (Proc.devRef .tc main_v9) : S32x2048x64.Idx → EReal) (ix3 g n d)
        = (W (Proc.devRef .tc main_v7_1) : S2x16x2048x64.Idx → EReal) (ix4 b hh n d)
    ∧ (StableHlo.after (hostOps1 (F := Ideal)) W (Proc.devRef .tc main_v10) : S32x2048x64.Idx → EReal) (ix3 g n d)
        = (W (Proc.devRef .tc main_v7_2) : S2x16x2048x64.Idx → EReal) (ix4 b hh n d) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))
  exact ⟨merged_apply _ Gen.shapeCasts_S2x16x2048x64_S32x2048x64 b hh n d g hg, merged_apply _ Gen.shapeCasts_S2x16x2048x64_S32x2048x64 b hh n d g hg,
    merged_apply _ Gen.shapeCasts_S2x16x2048x64_S32x2048x64 b hh n d g hg⟩

/-! ## The third stretch -/

/-- The attention output split back into batch and head. -/
theorem v12_apply (b : Fin 2) (hh : Fin 16) (n : Fin 2048) (d : Fin 64) (g : Fin 32) (hg : g.val = b.val * 16 + hh.val) :
    (StableHlo.after (hostOps2 (F := Ideal)) W (Proc.devRef .tc main_v12) : S2x16x2048x64.Idx → EReal) (ix4 b hh n d)
        = (W (Proc.devRef .tc main_v11) : S32x2048x64.Idx → EReal) (ix3 g n d) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))
  exact split_apply _ Gen.shapeCasts_S32x2048x64_S2x16x2048x64 b hh n d g hg

/-- The output weight transposed. -/
theorem v14_apply (e f : Fin 1024) :
    (StableHlo.after (hostOps2 (F := Ideal)) W (Proc.devRef .tc main_v14) : S1024x1024.Idx → EReal) (ix2 e f)
        = (W (Proc.devRef .tc main_arg7) : S1024x1024.Idx → EReal) (ix2 f e) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))
  exact transpose_sq_apply _ Gen.transposes_S1024x1024_S1024x1024_1_0 e f

/-- The output bias as a row. -/
theorem v15_apply (f : Fin 1024) :
    (StableHlo.after (hostOps2 (F := Ideal)) W (Proc.devRef .tc main_v15) : S1x1024.Idx → EReal) (ix2 (0 : Fin 1) f)
        = (W (Proc.devRef .tc main_arg8) : S1024.Idx → EReal) (ix1 f) := by
  simp only [after_cons, after_nil]
  repeat (first
    | rw [nary3_result] | rw [unary_result] | rw [reshape_result]
    | (rw [unary_result_ne]; rotate_left; decide)
    | (rw [nary_result_ne]; rotate_left; decide)
    | (rw [reshape_result_ne]; rotate_left; decide))
  exact row1024_apply _ Gen.shapeCasts_S1024_S1x1024 f

end Cert.KernelIdeal.Val

end
-- ==== Proof.Compose.lean ====
/-
  The three kernel regions composed are the specification.

  The projection region's output for column group s of the fused weight is the dense projection by the weight and bias
  that group holds. The attention region, reading the projections with batch and head merged into one index 16 b + h,
  computes the scaled logits of the specification's score and hence its softmax-weighted average of the value rows.
  The output region, reading the attention output with the heads of a row side by side and the output weight
  transposed, is the specification's output projection. No finiteness of any entry is needed.
-/
import proofs.«181749_j403726926150_2_alg».proof.Proof.KSpec
import proofs.«181749_j403726926150_2_alg».proof.Proof.Spec

noncomputable section

namespace Cert.KernelIdeal.Val

open Cert.KernelIdeal Idealize.ShloMosaic Idealize.ShloMosaic.ValueIdx Cert.Mha

/-- Batch b and head h merged into one index 16 b + h. -/
def merge (b : Fin 2) (h : Fin 16) : Fin 32 := ⟨b.val * 16 + h.val, by have := b.isLt; have := h.isLt; omega⟩
theorem merge_val (b : Fin 2) (h : Fin 16) : (merge b h).val = b.val * 16 + h.val := rfl

/-- The projection region's output for a column group that holds W transposed and β is the dense projection by W and β. -/
theorem projAt_eq (s : Fin 3) (x : Act) (w4 : S1024x3072.Idx → EReal) (b6 : S1x3072.Idx → EReal) (W : Mat) (β : Bias)
    (hw : ∀ e f : Fin 1024, w4 (ix2 e (col s f)) = W (ix2 f e))
    (hb : ∀ f : Fin 1024, b6 (ix2 (0 : Fin 1) (col s f)) = β (ix1 f))
    (b : Fin 2) (h : Fin 16) (n : Fin 2048) (d : Fin 64) :
    projAt s x w4 b6 b h n d = proj x W β b n (feat h d) := by
  unfold projAt proj
  rw [hb]
  simp only [hw]

/-- The attention region's output over projections read at the merged index is the specification's attention output. -/
theorem attnAt_eq (x : Act) (Wq : Mat) (bq : Bias) (Wk : Mat) (bk : Bias) (Wv : Mat) (bv : Bias)
    (q8 k9 v10 : S32x2048x64.Idx → EReal) (b : Fin 2) (h : Fin 16)
    (hq : ∀ (n : Fin 2048) (d : Fin 64), q8 (ix3 (merge b h) n d) = proj x Wq bq b n (feat h d))
    (hk : ∀ (n : Fin 2048) (d : Fin 64), k9 (ix3 (merge b h) n d) = proj x Wk bk b n (feat h d))
    (hv : ∀ (n : Fin 2048) (d : Fin 64), v10 (ix3 (merge b h) n d) = proj x Wv bv b n (feat h d))
    (n : Fin 2048) (d : Fin 64) :
    attnAt q8 k9 v10 (merge b h) n d = attend x Wq bq Wk bk Wv bv b h n d := by
  have hs : (fun j' : Fin 2048 => (∑ d' : Fin 64, q8 (ix3 (merge b h) n d') * k9 (ix3 (merge b h) j' d')) * ((1 / 32 : ℝ) : EReal))
      = score x Wq bq Wk bk b h n := by
    funext j'
    unfold score
    simp only [hq, hk]
  unfold attnAt attend
  rw [hs]
  simp only [hv]

/-- The three regions composed: the output region's array is the specification's layer output. -/
theorem compose (x : Act) (Wq : Mat) (bq : Bias) (Wk : Mat) (bk : Bias) (Wv : Mat) (bv : Bias) (Wo : Mat) (bo : Bias)
    (w4 : S1024x3072.Idx → EReal) (b6 : S1x3072.Idx → EReal) (q8 k9 v10 : S32x2048x64.Idx → EReal)
    (q7 k7 v7 : S2x16x2048x64.Idx → EReal) (a11 : S32x2048x64.Idx → EReal) (a12 : S2x16x2048x64.Idx → EReal)
    (w14 : S1024x1024.Idx → EReal) (b15 : S1x1024.Idx → EReal)
    (hw4 : ∀ e f : Fin 1024, w4 (ix2 e (col 0 f)) = Wq (ix2 f e) ∧ w4 (ix2 e (col 1 f)) = Wk (ix2 f e) ∧ w4 (ix2 e (col 2 f)) = Wv (ix2 f e))
    (hb6 : ∀ f : Fin 1024, b6 (ix2 (0 : Fin 1) (col 0 f)) = bq (ix1 f) ∧ b6 (ix2 (0 : Fin 1) (col 1 f)) = bk (ix1 f) ∧ b6 (ix2 (0 : Fin 1) (col 2 f)) = bv (ix1 f))
    (hq7 : q7 = projArr 0 x w4 b6) (hk7 : k7 = projArr 1 x w4 b6) (hv7 : v7 = projArr 2 x w4 b6)
    (hq8 : ∀ (b : Fin 2) (h : Fin 16) (n : Fin 2048) (d : Fin 64), q8 (ix3 (merge b h) n d) = q7 (ix4 b h n d))
    (hk9 : ∀ (b : Fin 2) (h : Fin 16) (n : Fin 2048) (d : Fin 64), k9 (ix3 (merge b h) n d) = k7 (ix4 b h n d))
    (hv10 : ∀ (b : Fin 2) (h : Fin 16) (n : Fin 2048) (d : Fin 64), v10 (ix3 (merge b h) n d) = v7 (ix4 b h n d))
    (ha11 : a11 = attnArr q8 k9 v10)
    (ha12 : ∀ (b : Fin 2) (h : Fin 16) (n : Fin 2048) (d : Fin 64), a12 (ix4 b h n d) = a11 (ix3 (merge b h) n d))
    (hw14 : ∀ e f : Fin 1024, w14 (ix2 e f) = Wo (ix2 f e)) (hb15 : ∀ f : Fin 1024, b15 (ix2 (0 : Fin 1) f) = bo (ix1 f)) :
    outArr a12 w14 b15 = mha x Wq bq Wk bk Wv bv Wo bo := by
  subst hq7 hk7 hv7 ha11
  have pq : ∀ (b : Fin 2) (h : Fin 16) (n : Fin 2048) (d : Fin 64), q8 (ix3 (merge b h) n d) = proj x Wq bq b n (feat h d) :=
    fun b h n d => by
      rw [hq8, projArr_apply]
      exact projAt_eq 0 x w4 b6 Wq bq (fun e f => (hw4 e f).1) (fun f => (hb6 f).1) b h n d
  have pk : ∀ (b : Fin 2) (h : Fin 16) (n : Fin 2048) (d : Fin 64), k9 (ix3 (merge b h) n d) = proj x Wk bk b n (feat h d) :=
    fun b h n d => by
      rw [hk9, projArr_apply]
      exact projAt_eq 1 x w4 b6 Wk bk (fun e f => (hw4 e f).2.1) (fun f => (hb6 f).2.1) b h n d
  have pv : ∀ (b : Fin 2) (h : Fin 16) (n : Fin 2048) (d : Fin 64), v10 (ix3 (merge b h) n d) = proj x Wv bv b n (feat h d) :=
    fun b h n d => by
      rw [hv10, projArr_apply]
      exact projAt_eq 2 x w4 b6 Wv bv (fun e f => (hw4 e f).2.2) (fun f => (hb6 f).2.2) b h n d
  have pa : ∀ (b : Fin 2) (h : Fin 16) (n : Fin 2048) (d : Fin 64), a12 (ix4 b h n d) = attend x Wq bq Wk bk Wv bv b h n d :=
    fun b h n d => by
      rw [ha12, attnArr_apply]
      exact attnAt_eq x Wq bq Wk bk Wv bv q8 k9 v10 b h (pq b h) (pk b h) (pv b h) n d
  have po : ∀ (b : Fin 2) (n : Fin 2048) (f : Fin 1024), outAt a12 w14 b15 b n f = mhaAt x Wq bq Wk bk Wv bv Wo bo b n f :=
    fun b n f => by
      unfold outAt mhaAt
      rw [hb15]
      simp only [pa, hw14]
  funext i
  exact po (i 0) (i 1) (i 2)

end Cert.KernelIdeal.Val

end
-- ==== Proof.KernelValue.lean ====
/-
  The idealized kernel program's result array, as the specification of its argument arrays.

  The result array is the output region's array; that region reads the attention region's array through a split of
  the merged batch-and-head axis, the transposed output weight and the bias row; the attention region reads the
  projection region's three arrays through the merge of batch and head; the projection region reads the activation,
  the fused weight and the fused bias, which the first host stretch builds from the argument arrays. No host
  operation and no region changes an argument array, so every read of one goes back to the launch memory.
-/
import proofs.«181749_j403726926150_2_alg».proof.Proof.Run
import proofs.«181749_j403726926150_2_alg».proof.Proof.Arr0
import proofs.«181749_j403726926150_2_alg».proof.Proof.Arr1
import proofs.«181749_j403726926150_2_alg».proof.Proof.Arr2
import proofs.«181749_j403726926150_2_alg».proof.Proof.HostReads
import proofs.«181749_j403726926150_2_alg».proof.Proof.Compose

noncomputable section

namespace Cert.KernelIdeal.Val

open Cert.KernelIdeal Cert.KernelIdeal.Gen Cert.KernelIdeal.Hand Cert.Mha
open Idealize.ShloMosaic Idealize.ShloMosaic.TcCoe Idealize.ShloMosaic.ValueIdx Idealize.SL.Sem

variable (m : (ℓ : Loc nD τ sig) → Buf (Elt Ideal) ℓ) (ρ : Dev nD → PrngReg)

/-- A buffer that the first two host stretches do not write and that is no array of the first two regions holds its
    launch contents when the third stretch starts. -/
theorem W4_keep (c : Dev nD) (b : Ref sig .tc) (h0 : b ∉ hostOps0_W) (h1 : b ∉ hostOps1_W)
    (a0 : ∀ w, Pipeline.arrRef spec0 w ≠ b) (a1 : ∀ w, Pipeline.arrRef spec1 w ≠ b) :
    W4 (F := Ideal) m ρ c (Proc.devRef .tc b) = m ((c : Thread nD τ).loc b) :=
  (W4_of_ne m ρ c b a1).trans <| (StableHlo.after_of_writes_sub hostOps1 _ hostOps1_writes h1).trans <|
    (W2_of_ne m ρ c b a0).trans <| (StableHlo.after_of_writes_sub hostOps0 _ hostOps0_writes h0).trans rfl

/-- The result array after the run is the attention layer of the launch arguments. -/
theorem result_eq (c : Dev nD) :
    (W6 (F := Ideal) m ρ c (Proc.devRef .tc main_v16) : S2x2048x1024.Idx → EReal)
      = mha (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [W6_result, arr2]
  refine compose _ _ _ _ _ _ _ _ _
    (U1 m ρ c main_v4) (U1 m ρ c main_v6) (U3 m ρ c main_v8) (U3 m ρ c main_v9) (U3 m ρ c main_v10)
    (U2 m ρ c main_v7_0) (U2 m ρ c main_v7_1) (U2 m ρ c main_v7_2) (U4 m ρ c main_v11) (U5 m ρ c main_v12) (U5 m ρ c main_v14) (U5 m ρ c main_v15)
    (fun e f => v4_apply (W0 m ρ c) e f) (fun f => v6_apply (W0 m ρ c) f) ?_ ?_ ?_
    (fun b h n d => (v8_apply (W2 m ρ c) b h n d (merge b h) (merge_val b h)).1)
    (fun b h n d => (v8_apply (W2 m ρ c) b h n d (merge b h) (merge_val b h)).2.1)
    (fun b h n d => (v8_apply (W2 m ρ c) b h n d (merge b h) (merge_val b h)).2.2)
    ((W4_arr m ρ c 3).trans (arr1 (U3 m ρ) c))
    (fun b h n d => v12_apply (W4 m ρ c) b h n d (merge b h) (merge_val b h))
    (fun e f => (v14_apply (W4 m ρ c) e f).trans (congrFun (W4_keep m ρ c main_arg7 (by decide) (by decide) (by decide) (by decide)) _))
    (fun f => (v15_apply (W4 m ρ c) f).trans (congrFun (W4_keep m ρ c main_arg8 (by decide) (by decide) (by decide) (by decide)) _))
  · exact (W2_arr m ρ c 3).trans ((arr0_q (U1 m ρ) c).trans (by rw [show U1 m ρ c main_arg0 = (m ((c.tc : Thread nD τ).loc main_arg0)) from v_arg0_apply (W0 m ρ c)]))
  · exact (W2_arr m ρ c 4).trans ((arr0_k (U1 m ρ) c).trans (by rw [show U1 m ρ c main_arg0 = (m ((c.tc : Thread nD τ).loc main_arg0)) from v_arg0_apply (W0 m ρ c)]))
  · exact (W2_arr m ρ c 5).trans ((arr0_v (U1 m ρ) c).trans (by rw [show U1 m ρ c main_arg0 = (m ((c.tc : Thread nD τ).loc main_arg0)) from v_arg0_apply (W0 m ρ c)]))

end Cert.KernelIdeal.Val

end
-- ==== Proof.RefConsts.lean ====
/-
  The float constants the reference program spells, as the extended reals their patterns denote, and the scale they
  combine to: 1024 to the power one half is 32, so dividing a logit by it is multiplying by 1/32.
-/
import Idealize.ShloMosaic.PureOps.Ideal

noncomputable section

namespace Cert.ReferenceIdeal.RefValue

open Idealize.ShloMosaic

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of negative infinity denotes the bottom element. -/
theorem ofBits_neg_inf : Ideal.ofBits .f32 0xFF800000#32 = ⊥ := by
  simp [Ideal.ofBits, Ideal.ieee]

/-- The pattern of +0.0 denotes 0. -/
theorem ofBits_zero : Ideal.ofBits .f32 0x00000000#32 = 0 := by
  simp [Ideal.ofBits, Ideal.ieee]

/-- 1024 to the power one half is 32. -/
theorem pow_1024_half : Ideal.pow ((1024 : ℝ) : EReal) ((1 / 2 : ℝ) : EReal) = ((32 : ℝ) : EReal) := by
  rw [Ideal.pow_coe_coe]
  congr 1
  show (1024 : ℝ) ^ ((1 / 2 : ℝ)) = 32
  rw [show (1024 : ℝ) = 32 ^ (2 : ℝ) by norm_num, ← Real.rpow_mul (by norm_num)]
  norm_num

/-- Dividing by the square root of 1024, as the reference spells it, is multiplying by 1/32: on every extended real. -/
theorem div_scale (x : EReal) :
    Ideal.div x (Ideal.pow (Ideal.ofBits .f32 0x44800000#32) (Ideal.ofBits .f32 0x3F000000#32)) = x * ((1 / 32 : ℝ) : EReal) := by
  rw [ofBits_1024, ofBits_half, pow_1024_half]
  exact Ideal.div_coe (by norm_num) x

end Cert.ReferenceIdeal.RefValue

end
-- ==== Proof.RefProj.lean ====
/-
  The reference's three dense projections, read at an entry.

  The projection x · Wᵀ + β, as the reference computes it (a transpose, a contraction over the feature axis, the bias
  broadcast twice and added), is at batch b, row n, feature f the sum over e of x[b, n, e] · W[f, e] plus β[f].
  Reshaped to [2, 2048, 16, 64] and transposed to [2, 16, 2048, 64], its entry (b, h, n, d) is the projection at
  feature 64 h + d. The key and value projections are the same program text over other weights.
-/
import proofs.«181749_j403726926150_2_alg».proof.Proof.Gen.ReferenceIdeal.Read
import proofs.«181749_j403726926150_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Mha

/-- The dense layer x · Wᵀ + β at (b, n, f). -/
theorem v4_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (b : Fin 2) (n : Fin 2048) (f : Fin 1024) :
    val_main_v4 (F := Ideal) x0 x1 x2 (ix3 b n f) = proj x0 x1 x2 b n f := by
  have e1 : ∀ k : Fin 1024, lidx_main_v1 (ix3 b n f) k = ix3 b n k := fun k => funext fun a => by
    match a with
    | ⟨0, _⟩ => rfl
    | ⟨1, _⟩ => rfl
    | ⟨2, _⟩ => rfl
  have e2 : ∀ k : Fin 1024, idx_main_v0 (ridx_main_v1 (ix3 b n f) k) = ix2 f k := fun k => funext fun a => by
    match a with
    | ⟨0, _⟩ => rfl
    | ⟨1, _⟩ => rfl
  have e3 : idx_main_v2 (idx_main_v3 (ix3 b n f)) = ix1 f := funext fun a => by
    match a with
    | ⟨0, _⟩ => rfl
  rw [val_main_v4_apply, val_main_v1_apply, val_main_v3_apply, val_main_v2_apply, e3]
  simp only [val_main_v0_apply, e1, e2, Ideal.addf_def]
  rfl

/-- The query projection in head layout: entry (b, h, n, d) is the projection at feature 64 h + d. -/
theorem v6_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (b : Fin 2) (h : Fin 16) (n : Fin 2048) (d : Fin 64) :
    val_main_v6 (F := Ideal) x0 x1 x2 (ix4 b h n d) = proj x0 x1 x2 b n (feat h d) := by
  have e : idx_main_v5 (idx_main_v6 (ix4 b h n d)) = ix3 b n (feat h d) := funext fun a => Fin.ext (by
    have hb := b.isLt; have hh := h.isLt; have hn := n.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => show (((b.val * 2048 + n.val) * 16 + h.val) * 64 + d.val) % 1024 = h.val * 64 + d.val; omega)
  rw [val_main_v6_apply, val_main_v5_apply, e, v4_eq]

/-- The key projection is the same program text over the key weights. -/
theorem v13_eq (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) (b : Fin 2) (h : Fin 16) (n : Fin 2048) (d : Fin 64) :
    val_main_v13 (F := Ideal) x0 x3 x4 (ix4 b h n d) = proj x0 x3 x4 b n (feat h d) :=
  v6_eq x0 x3 x4 b h n d

/-- The value projection is the same program text over the value weights. -/
theorem v20_eq (x0 : (⟨S2x2048x1024, .f32⟩ : BufTy).Contents (Elt Ideal)) (x5 : (⟨S1024x1024, .f32⟩ : BufTy).Contents (Elt Ideal)) (x6 : (⟨S1024, .f32⟩ : BufTy).Contents (Elt Ideal)) (b : Fin 2) (h : Fin 16) (n : Fin 2048) (d : Fin 64) :
    val_main_v20 (F := Ideal) x0 x5 x6 (ix4 b h n d) = proj x0 x5 x6 b n (feat h d) :=
  v6_eq x0 x5 x6 b h n d

end Cert.ReferenceIdeal.RefValue

end
-- ==== Proof.RefScore.lean ====
/-
  The reference's scaled logits, read at an entry.

  The batched contraction of the query and key projections over the 64 lanes of a head, divided by 1024 to the power
  one half (which is 32), is at (b, h, n, j) the specification's score of query row n against key row j.
-/
import proofs.«181749_j403726926150_2_alg».proof.Proof.RefConsts
import proofs.«181749_j403726926150_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx Cert.Mha

/-- The logits before scaling: the inner product of query row n and key row j over the lanes of head h. -/
theorem v21_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 2) (h : Fin 16) (n j : Fin 2048) :
    val_main_v21 (F := Ideal) x0 x1 x2 x3 x4 (ix4 b h n j)
      = ∑ d : Fin 64, proj x0 x1 x2 b n (feat h d) * proj x0 x3 x4 b j (feat h d) := by
  have el : ∀ k : Fin 64, lidx_main_v21 (ix4 b h n j) k = ix4 b h n k := fun k => funext fun a => by
    match a with
    | ⟨0, _⟩ => rfl
    | ⟨1, _⟩ => rfl
    | ⟨2, _⟩ => rfl
    | ⟨3, _⟩ => rfl
  have er : ∀ k : Fin 64, ridx_main_v21 (ix4 b h n j) k = ix4 b h j k := fun k => funext fun a => by
    match a with
    | ⟨0, _⟩ => rfl
    | ⟨1, _⟩ => rfl
    | ⟨2, _⟩ => rfl
    | ⟨3, _⟩ => rfl
  rw [val_main_v21_apply]
  simp only [el, er, v6_eq, v13_eq]

/-- The scaled logit is the specification's score. -/
theorem v24_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 2) (h : Fin 16) (n j : Fin 2048) :
    val_main_v24 (F := Ideal) x0 x1 x2 x3 x4 (ix4 b h n j) = score x0 x1 x2 x3 x4 b h n j := by
  rw [val_main_v24_apply, v21_eq, val_main_v23_apply, val_main_v22_apply, val_main_cst_apply, val_main_cst_0_apply]
  simp only [Ideal.hostDivf_def, Ideal.hostPowf_def, Ideal.ofBits_def]
  rw [div_scale]
  rfl

end Cert.ReferenceIdeal.RefValue

end
-- ==== Proof.RefSoftmax.lean ====
/-
  The reference's softmax over each row of scaled logits, read at an entry.

  The row maximum is a reduction along the last axis from negative infinity, which is the fold of max over the row
  from the bottom element; the further maximum with a broadcast negative infinity changes nothing. The maximum is
  broadcast back along the row, subtracted, exponentiated; the exponentials are summed along the row from zero, the
  sum broadcast back, and the quotient is the specification's softmax of the row at the entry. Every step holds on
  all extended reals.
-/
import proofs.«181749_j403726926150_2_alg».proof.Proof.RefScore

noncomputable section

namespace Cert.ReferenceIdeal.RefValue

open Cert.ReferenceIdeal Cert.ReferenceIdeal.Gen Cert.ReferenceIdeal.Read Idealize.ShloMosaic Idealize.ShloMosaic.ValueIdx Cert.Mha

/-- The reduced index (p, q, r) of a reduction along the last of four axes, with coordinate k put back, is (p, q, r, k). -/
theorem lift_last {a b c d : ℕ} (h : (⟨4, ![a, b, c, d]⟩ : Shape).Reduces [3] ⟨3, ![a, b, c]⟩) (p : Fin a) (q : Fin b) (r : Fin c)
    (k : Fin ((⟨4, ![a, b, c, d]⟩ : Shape).size 3)) : h.lift (ix3 p q r) k = ix4 p q r (⟨k.val, k.isLt⟩ : Fin d) := by
  funext e; apply Fin.ext
  match e with
  | ⟨0, _⟩ => rfl
  | ⟨1, _⟩ => rfl
  | ⟨2, _⟩ => rfl
  | ⟨3, _⟩ => rfl

/-- The host's maximum along the last of four axes, at (p, q, r): the fold of max from the initial value over the row. -/
theorem hostReduce_max_last {a b c d : ℕ} {φ : FTy} {u : Shape} (x : FVec Ideal ⟨4, ![a, b, c, d]⟩ φ) (init : u.Idx → Ideal φ)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (p : Fin a) (q : Fin b) (r : Fin c) :
    Host.reduce (FloatOps.maximumf (F := Ideal) (φ := φ)) x init h' hu (ix3 p q r)
      = (Finset.univ : Finset (Fin d)).fold max (init (Shape.Idx.first hu)) (fun k => x (ix4 p q r k)) :=
  (Host.reduce_eq_fold_single (FloatOps.maximumf (F := Ideal) (φ := φ)) x init h' h hu (ix3 p q r)).trans
    (congrArg (fun f => Finset.fold max (init (Shape.Idx.first hu)) f (Finset.univ : Finset (Fin d)))
      (funext fun k => congrArg x (lift_last h p q r k)))

theorem reduces_last : S2x16x2048x2048.Reduces [3] S2x16x2048 := by decide

section
variable (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 2) (h : Fin 16) (n : Fin 2048)

/-- The reduction from negative infinity is the row's maximum. -/
theorem v25_eq : val_main_v25 (F := Ideal) x0 x1 x2 x3 x4 (ix3 b h n) = rowMax (score x0 x1 x2 x3 x4 b h n) := by
  unfold val_main_v25
  refine (hostReduce_max_last (val_main_v24 (F := Ideal) x0 x1 x2 x3 x4) (val_main_cst_1 (F := Ideal)) _ reduces_last _ b h n).trans ?_
  rw [val_main_cst_1_apply, Ideal.ofBits_def, ofBits_neg_inf]
  unfold rowMax
  exact congrArg (fun f => Finset.fold max ⊥ f (Finset.univ : Finset (Fin 2048))) (funext fun k => v24_eq x0 x1 x2 x3 x4 b h n k)

/-- The maximum with negative infinity again changes nothing. -/
theorem v27_eq : val_main_v27 (F := Ideal) x0 x1 x2 x3 x4 (ix3 b h n) = rowMax (score x0 x1 x2 x3 x4 b h n) := by
  rw [val_main_v27_apply, val_main_v26_apply, val_main_cst_2_apply, v25_eq]
  simp only [Ideal.maximumf_def, Ideal.ofBits_def, ofBits_neg_inf]
  exact max_bot_left _

variable (j : Fin 2048)

/-- The row's maximum, broadcast back along the row. -/
theorem v29_eq : val_main_v29 (F := Ideal) x0 x1 x2 x3 x4 (ix4 b h n j) = rowMax (score x0 x1 x2 x3 x4 b h n) := by
  have e : idx_main_v28 (idx_main_v29 (ix4 b h n j)) = ix3 b h n := funext fun a => by
    match a with
    | ⟨0, _⟩ => rfl
    | ⟨1, _⟩ => rfl
    | ⟨2, _⟩ => rfl
  rw [val_main_v29_apply, val_main_v28_apply, e, v27_eq]

/-- The exponential of the shifted logit. -/
theorem v31_eq : val_main_v31 (F := Ideal) x0 x1 x2 x3 x4 (ix4 b h n j)
    = Ideal.exp (score x0 x1 x2 x3 x4 b h n j - rowMax (score x0 x1 x2 x3 x4 b h n)) := by
  rw [val_main_v31_apply, val_main_v30_apply, v24_eq, v29_eq]
  simp only [Ideal.hostUnary_exp_def, Ideal.subf_def]

/-- The row's sum of exponentials: the sum from zero is the sum. -/
theorem v32_eq : val_main_v32 (F := Ideal) x0 x1 x2 x3 x4 (ix3 b h n)
    = ∑ k : Fin 2048, Ideal.exp (score x0 x1 x2 x3 x4 b h n k - rowMax (score x0 x1 x2 x3 x4 b h n)) := by
  have e : ∀ k : Fin 2048, idx_main_v32 (ix3 b h n) k = ix4 b h n k := fun k => funext fun a => by
    match a with
    | ⟨0, _⟩ => rfl
    | ⟨1, _⟩ => rfl
    | ⟨2, _⟩ => rfl
    | ⟨3, _⟩ => rfl
  rw [val_main_v32_apply, val_main_cst_3_apply, Ideal.ofBits_def, ofBits_zero, zero_add]
  simp only [e, v31_eq]

/-- The row's sum of exponentials, broadcast back along the row. -/
theorem v34_eq : val_main_v34 (F := Ideal) x0 x1 x2 x3 x4 (ix4 b h n j)
    = ∑ k : Fin 2048, Ideal.exp (score x0 x1 x2 x3 x4 b h n k - rowMax (score x0 x1 x2 x3 x4 b h n)) := by
  have e : idx_main_v33 (idx_main_v34 (ix4 b h n j)) = ix3 b h n := funext fun a => by
    match a with
    | ⟨0, _⟩ => rfl
    | ⟨1, _⟩ => rfl
    | ⟨2, _⟩ => rfl
  rw [val_main_v34_apply, val_main_v33_apply, e, v32_eq]

/-- The softmax weight of key row j for query row n. -/
theorem v35_eq : val_main_v35 (F := Ideal) x0 x1 x2 x3 x4 (ix4 b h n j) = softmaxRow (score x0 x1 x2 x3 x4 b h n) j := by
  rw [val_main_v35_apply, v31_eq, v34_eq]
  rfl

end

end Cert.ReferenceIdeal.RefValue

end
-- ==== Proof.RefAttend.lean ====
/-
  The reference's attention output, read at an entry.

  The batched contraction of the softmax weights with the value projection over the key rows is the specification's
  attention output of head h at (b, n, d). Transposed to [2, 2048, 16, 64] and reshaped to [2, 2048, 1024], feature e
  of the result is lane e mod 64 of head e div 64.
-/
import proofs.«181749_j403726926150_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx Cert.Mha

section
variable (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
  (b : Fin 2) (n : Fin 2048)

/-- The weighted average of the value rows. -/
theorem v36_eq (h : Fin 16) (d : Fin 64) :
    val_main_v36 (F := Ideal) x0 x1 x2 x3 x4 x5 x6 (ix4 b h n d) = attend x0 x1 x2 x3 x4 x5 x6 b h n d := by
  have el : ∀ k : Fin 2048, lidx_main_v36 (ix4 b h n d) k = ix4 b h n k := fun k => funext fun a => by
    match a with
    | ⟨0, _⟩ => rfl
    | ⟨1, _⟩ => rfl
    | ⟨2, _⟩ => rfl
    | ⟨3, _⟩ => rfl
  have er : ∀ k : Fin 2048, ridx_main_v36 (ix4 b h n d) k = ix4 b h k d := fun k => funext fun a => by
    match a with
    | ⟨0, _⟩ => rfl
    | ⟨1, _⟩ => rfl
    | ⟨2, _⟩ => rfl
    | ⟨3, _⟩ => rfl
  rw [val_main_v36_apply]
  simp only [el, er, v35_eq, v20_eq]
  rfl

/-- The heads laid side by side again: feature e is lane e mod 64 of head e div 64. -/
theorem v38_eq (e : Fin 1024) :
    val_main_v38 (F := Ideal) x0 x1 x2 x3 x4 x5 x6 (ix3 b n e) = attend x0 x1 x2 x3 x4 x5 x6 b (headOf e) n (laneOf e) := by
  have ei : idx_main_v37 (idx_main_v38 (ix3 b n e)) = ix4 b (headOf e) n (laneOf e) := funext fun a => Fin.ext (by
    have hb := b.isLt; have hn := n.isLt; have he := e.isLt
    match a with
    | ⟨0, _⟩ => show ((b.val * 2048 + n.val) * 1024 + e.val) / 2097152 = b.val; omega
    | ⟨1, _⟩ => show ((b.val * 2048 + n.val) * 1024 + e.val) / 64 % 16 = e.val / 64; omega
    | ⟨2, _⟩ => show ((b.val * 2048 + n.val) * 1024 + e.val) / 1024 % 2048 = n.val; omega
    | ⟨3, _⟩ => show ((b.val * 2048 + n.val) * 1024 + e.val) % 64 = e.val % 64; omega)
  rw [val_main_v38_apply, val_main_v37_apply, ei, v36_eq]

end

end Cert.ReferenceIdeal.RefValue

end
-- ==== Proof.RefOut.lean ====
/-
  The reference's result is the specification's multi-head attention.

  The output projection is the same program text as the three input projections, applied to the attention output
  with the heads side by side; at (b, n, f) it is the sum over e of the attention output at feature e times Wo[f, e],
  plus bo[f], which is the specification's layer output.
-/
import proofs.«181749_j403726926150_2_alg».proof.Proof.RefAttend

noncomputable section

namespace Cert.ReferenceIdeal.RefValue

open Cert.ReferenceIdeal Cert.ReferenceIdeal.Gen Cert.ReferenceIdeal.Read Idealize.ShloMosaic Idealize.ShloMosaic.ValueIdx Cert.Mha

section
variable (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))

/-- The output projection at (b, n, f). -/
theorem v43_eq (b : Fin 2) (n : Fin 2048) (f : Fin 1024) :
    val_main_v43 (F := Ideal) x0 x1 x2 x3 x4 x5 x6 x7 x8 (ix3 b n f) = mhaAt x0 x1 x2 x3 x4 x5 x6 x7 x8 b n f := by
  have e : val_main_v43 (F := Ideal) x0 x1 x2 x3 x4 x5 x6 x7 x8
      = val_main_v4 (F := Ideal) (val_main_v38 (F := Ideal) x0 x1 x2 x3 x4 x5 x6) x7 x8 := rfl
  rw [e, v4_eq]
  unfold proj mhaAt
  simp only [v38_eq]

/-- The reference program's result is the specification. -/
theorem ref_is_mha (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Cert.ReferenceIdeal.Read.val_main_v43 (F := Ideal) x0 x1 x2 x3 x4 x5 x6 x7 x8 = Cert.Mha.mha x0 x1 x2 x3 x4 x5 x6 x7 x8 := by
  funext i
  exact (congrArg (val_main_v43 (F := Ideal) x0 x1 x2 x3 x4 x5 x6 x7 x8) (eq_ix3 i)).trans
    (v43_eq x0 x1 x2 x3 x4 x5 x6 x7 x8 (i 0) (i 1) (i 2))

end

end Cert.ReferenceIdeal.RefValue

end
-- ==== Proof.lean ====
/-
  A multi-head attention layer as three kernel regions — the fused query/key/value projection, the attention of each
  head, the output projection — against its plain formulation, over the extended reals.

  Frames. The word-level program and its idealization run the same three regions among the same host operations; each
  region's body loads its input blocks whole and stores its output blocks whole, so each runs from any contents, and the
  argument arrays, which no host operation writes and which are output arrays of no region, end as launched. The
  reference is a line of host operations.

  Values. At the ideal instance a change of float format is the identity, a matrix product into a zero accumulator is
  the plain sum over the contracted index, and a lane reduction is the sum or the fold of `max` over the row; so both
  programs compute, entry by entry, the same function of the arguments: the projections x · Wᵀ + b, the logits scaled
  by 1/32 (the kernel multiplies by the dyadic 1/32, the reference divides by 1024 to the power 1/2, which is 32), the
  softmax shifted by the row's maximum, the weighted values, the output projection. Sums are finite sums in a
  commutative monoid, so neither their order nor the tiling matters, and no step needs the inputs to be finite.
-/
import proofs.«181749_j403726926150_2_alg».proof.Defs
import proofs.«181749_j403726926150_2_alg».proof.Proof.Gen.Kernel
import proofs.«181749_j403726926150_2_alg».proof.Proof.Gen.KernelIdeal
import proofs.«181749_j403726926150_2_alg».proof.Proof.Gen.ReferenceIdeal
import proofs.«181749_j403726926150_2_alg».proof.Proof.Gen.ReferenceIdeal.Run
import proofs.«181749_j403726926150_2_alg».proof.Proof.Gen.ReferenceIdeal.Read
import proofs.«181749_j403726926150_2_alg».proof.Proof.Gen.Pre_finite_inputs
import proofs.«181749_j403726926150_2_alg».proof.Proof.KRun
import proofs.«181749_j403726926150_2_alg».proof.Proof.Run
import proofs.«181749_j403726926150_2_alg».proof.Proof.KernelValue
import proofs.«181749_j403726926150_2_alg».proof.Proof.RefOut
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the attention layer of the arguments in their result arrays. -/
theorem algebraic : Cert.algebraic_KernelIdeal_ReferenceIdeal := by
  intro m ρ m' ρ' _ hagree
  refine ⟨fun c => Cert.Mha.mha (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Val.result_eq m ρ c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v43_eq, Cert.ReferenceIdeal.RefValue.ref_is_mha, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
